-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x2048 : Shape := ⟨2, ![1024, 2048]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x2048 .f32) (main_arg8 : FVec F S1024 .f32) (main_arg9 : FVec F S1024x2048 .f32) (main_arg10 : FVec F S1024 .f32) (main_v33 : IVec S_ 1) : IVec S_ 1 :=
  let main_v34 : FVec F S1024x2048 .f32 := Host.absf main_arg7
  let main_cst_12 : FVec F S_ .f32 := constant S_ .f32 0x7F800000#32
  let main_v35 : FVec F S1024x2048 .f32 := broadcastInDim S1024x2048 ![] bcast_S_S1024x2048 main_cst_12
  let main_v36 : IVec S1024x2048 1 := cmpf .olt main_v34 main_v35
  let main_c_13 : IVec S_ 1 := constantI S_ 1 1#1
  let main_v37 : IVec S_ 1 := (fun x v => Host.reduce IntOp.andi x v reducesTo_S1024x2048_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x2048 .f32 := Host.absf main_arg9
  let main_cst_16 : FVec F S_ .f32 := constant S_ .f32 0x7F800000#32
  let main_v45 : FVec F S1024x2048 .f32 := broadcastInDim S1024x2048 ![] bcast_S_S1024x2048 main_cst_16
  let main_v46 : IVec S1024x2048 1 := cmpf .olt main_v44 main_v45
  let main_c_17 : IVec S_ 1 := constantI S_ 1 1#1
  let main_v47 : IVec S_ 1 := (fun x v => Host.reduce IntOp.andi x v reducesTo_S1024x2048_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x2048 .f32) (main_arg6 : FVec F S1024 .f32) (main_arg7 : FVec F S1024x2048 .f32) (main_arg8 : FVec F S1024 .f32) (main_arg9 : FVec F S1024x2048 .f32) (main_arg10 : FVec F S1024 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x1024 .f32) (main_arg1 : FVec F S16384x1024 .f32) (main_arg2 : FVec F S16384x1024 .f32) (main_arg3 : FVec F S1024x2048 .f32) (main_arg4 : FVec F S1024 .f32) (main_arg5 : FVec F S1024x2048 .f32) (main_arg6 : FVec F S1024 .f32) (main_arg7 : FVec F S1024x2048 .f32) (main_arg8 : FVec F S1024 .f32) (main_arg9 : FVec F S1024x2048 .f32) (main_arg10 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_arg7 main_arg8 main_arg9 main_arg10 main_v13 main_v16
-- ==== Kernel.lean ====
abbrev S16384x1024 : Shape := ⟨2, ![16384, 1024]⟩
abbrev S1024x2048 : Shape := ⟨2, ![1024, 2048]⟩
abbrev S1024 : Shape := ⟨1, ![1024]⟩
abbrev S4096x2048 : Shape := ⟨2, ![4096, 2048]⟩
abbrev S4096 : Shape := ⟨1, ![4096]⟩
abbrev S1x4096 : Shape := ⟨2, ![1, 4096]⟩
abbrev S2x16384x1024 : Shape := ⟨3, ![2, 16384, 1024]⟩
abbrev S256x1024 : Shape := ⟨2, ![256, 1024]⟩
abbrev S2x256x1024 : Shape := ⟨3, ![2, 256, 1024]⟩
abbrev S4096x1024 : Shape := ⟨2, ![4096, 1024]⟩
abbrev S256x4096 : Shape := ⟨2, ![256, 4096]⟩
abbrev S1x256x1024 : Shape := ⟨3, ![1, 256, 1024]⟩

abbrev nBuf : Space → Nat
  | .hbm => 16
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x2048, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x2048, .f32⟩
  | .hbm, ⟨10, _⟩ => ⟨S1024, .f32⟩
  | .hbm, ⟨11, _⟩ => ⟨S4096x2048, .f32⟩
  | .hbm, ⟨12, _⟩ => ⟨S4096x2048, .bf16⟩
  | .hbm, ⟨13, _⟩ => ⟨S4096, .f32⟩
  | .hbm, ⟨14, _⟩ => ⟨S1x4096, .f32⟩
  | .hbm, ⟨15, _⟩ => ⟨S2x16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4096x2048, .bf16⟩
  | .local _ .vmem, ⟨7, _⟩ => ⟨S1x4096, .f32⟩
  | .local _ .vmem, ⟨8, _⟩ => ⟨S2x256x1024, .f32⟩
  | .local _ .vmem, ⟨9, _⟩ => ⟨S2x256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  concatenates_S1024x2048_S1024x2048_S1024x2048_S1024x2048_S4096x2048_d0 : Shape.Concatenates [S1024x2048, S1024x2048, S1024x2048, S1024x2048] S4096x2048 0
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S4096x2048_S4096x1024_0_0 : ∀ a, (![0, 0] : Fin 2 → Nat) a + S4096x1024.size a ≤ S4096x2048.size a
  h_S4096x1024 : 0 < S4096x1024.numel
  shapeCasts_S4096x1024_S4096x1024 : S4096x1024.ShapeCasts S4096x1024
  inb_S4096x2048_S4096x1024_0_1024 : ∀ a, (![0, 1024] : Fin 2 → Nat) a + S4096x1024.size a ≤ S4096x2048.size a
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  inb_S2x256x1024_S1x256x1024_0_0_0 : ∀ a, (![0, 0, 0] : Fin 3 → Nat) a + S1x256x1024.size a ≤ S2x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  inb_S2x256x1024_S1x256x1024_1_0_0 : ∀ a, (![1, 0, 0] : Fin 3 → Nat) a + S1x256x1024.size a ≤ S2x256x1024.size a
  dot_S256x1024_S4096x1024_S256x4096_1_1_0_0_n_n_wf : DotDims.WF S256x1024 S4096x1024 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x2048.size a ≤ S4096x2048.size a
  hwx0_3 : ∀ i : grid0.Coords, EltTy.bits .bf16 = 32 ∨ (Rect.block (s := S4096x2048) S4096x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x256x1024.size a ≤ S2x16384x1024.size a
  hwx0_5 : ∀ i : grid0.Coords, EltTy.bits .f32 = 32 ∨ (Rect.block (s := S2x16384x1024) S2x256x1024.size (cc0_transform_5 i) (hinb0_5 i)).WholeWords (EltTy.packing .f32)

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S2x256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x2048 : Shape := ⟨2, ![1024, 2048]⟩
abbrev S1024 : Shape := ⟨1, ![1024]⟩
abbrev S16384x2048 : Shape := ⟨2, ![16384, 2048]⟩
abbrev S2048x1024 : Shape := ⟨2, ![2048, 1024]⟩
abbrev S1x1024 : Shape := ⟨2, ![1, 1024]⟩
abbrev S_ : Shape := ⟨0, ![]⟩
abbrev S1x16384x1024 : Shape := ⟨3, ![1, 16384, 1024]⟩
abbrev S2x16384x1024 : Shape := ⟨3, ![2, 16384, 1024]⟩

abbrev nBuf : Space → Nat
  | .hbm => 65
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x2048, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x2048, .f32⟩
  | .hbm, ⟨10, _⟩ => ⟨S1024, .f32⟩
  | .hbm, ⟨11, _⟩ => ⟨S16384x2048, .f32⟩
  | .hbm, ⟨12, _⟩ => ⟨S2048x1024, .f32⟩
  | .hbm, ⟨13, _⟩ => ⟨S16384x1024, .f32⟩
  | .hbm, ⟨14, _⟩ => ⟨S1x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S2048x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S2048x1024, .f32⟩
  | .hbm, ⟨39, _⟩ => ⟨S16384x1024, .f32⟩
  | .hbm, ⟨40, _⟩ => ⟨S1x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S16384x1024, .f32⟩
  | .hbm, ⟨50, _⟩ => ⟨S16384x1024, .f32⟩
  | .hbm, ⟨51, _⟩ => ⟨S2048x1024, .f32⟩
  | .hbm, ⟨52, _⟩ => ⟨S16384x1024, .f32⟩
  | .hbm, ⟨53, _⟩ => ⟨S1x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S1x16384x1024, .f32⟩
  | .hbm, ⟨63, _⟩ => ⟨S1x16384x1024, .f32⟩
  | .hbm, ⟨64, _⟩ => ⟨S2x16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩

abbrev nD : Nat := 1
abbrev τ : Topo := Topo.v7x

variable {F : FTy → Type} [FloatOps F]

class Facts₀ : Prop where
  concatenates_S16384x1024_S16384x1024_S16384x2048_d1 : Shape.Concatenates [S16384x1024, S16384x1024] S16384x2048 1
  transposes_S1024x2048_S2048x1024_1_0 : S1024x2048.Transposes [1, 0] S2048x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  bcast_S16384x1024_S1x16384x1024_1_2 : S16384x1024.BroadcastsInDim S1x16384x1024 (![1, 2] : Fin 2 → Fin S1x16384x1024.rank)
  concatenates_S1x16384x1024_S1x16384x1024_S2x16384x1024_d0 : Shape.Concatenates [S1x16384x1024, S1x16384x1024] S2x16384x1024 0
  dot_S16384x2048_S2048x1024_S16384x1024_1_0_0_1_n_n_wf : DotDims.WF S16384x2048 S2048x1024 S16384x1024 [1] [0] [0] [1] [] []

variable [Facts₀]

def dot_S16384x2048_S2048x1024_S16384x1024_1_0_0_1_n_n : DotDims S16384x2048 S2048x1024 S16384x1024 where
  lhsContracting := [1]
  rhsContracting := [0]
  lhsNonContracting := [0]
  rhsNonContracting := [1]
  lhsBatch := []
  rhsBatch := []
  wf := dot_S16384x2048_S2048x1024_S16384x1024_1_0_0_1_n_n_wf

class Facts : Prop extends Facts₀ where

variable [Facts]
-- ==== Proof.KernelFrame.lean ====
/-
  The frame of the LSTM-cell kernel, at any float instance.

  @main first stacks the four gate weight matrices along the rows into one [4096, 2048] matrix (rounded to bf16),
  stacks the four bias vectors into one [1, 4096] row, and then launches ONE region over 64 grid points: point t
  stages rows 256·t … 256·t+255 of x, prev_h and prev_c, the whole stacked weight matrix and bias row (both fetched
  once, at the first point), and writes back the [2, 256, 1024] block (·, 256·t …, ·) of the result.

  Here: what the region finds in every buffer (V: the host operations' results, the arguments untouched), what the
  body leaves in the output window's staging buffer as a function of the staged input blocks (out5: its two stores,
  plane 1 then plane 0, laid over one another), the body's triple, the proof data of the pipeline, the run of @main
  to the library's frame post, and from it that every argument array ends as it began.
-/
import proofs.«114699_j51376398795261_2_alg».proof.Proof.Gen.Kernel.Launch
import proofs.«114699_j51376398795261_2_alg».proof.Proof.Gen.Kernel.Skeleton
import proofs.«114699_j51376398795261_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core c's buffers when the region is entered: after the four host operations (the two stackings, the rounding
    of the stacked weights, the reshape of the stacked bias). -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument array: the region finds each as launched. -/
theorem V_arg (c : Dev nD) (b : Ref sig .tc)
    (h0 : b ≠ main_v0) (h1 : b ≠ main_v1) (h2 : b ≠ main_v2) (h3 : b ≠ main_v3) :
    V m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.reshape_writes, Finset.mem_singleton]
    exact ⟨StableHlo.devRef_ne_of_ne h0, StableHlo.devRef_ne_of_ne h1, StableHlo.devRef_ne_of_ne h2, StableHlo.devRef_ne_of_ne h3⟩))

theorem V_main_arg0 (c : Dev nD) : V m c main_arg0 = m ((c : Thread nD τ).loc main_arg0) := V_arg m c _ (by decide) (by decide) (by decide) (by decide)
theorem V_main_arg1 (c : Dev nD) : V m c main_arg1 = m ((c : Thread nD τ).loc main_arg1) := V_arg m c _ (by decide) (by decide) (by decide) (by decide)
theorem V_main_arg2 (c : Dev nD) : V m c main_arg2 = m ((c : Thread nD τ).loc main_arg2) := V_arg m c _ (by decide) (by decide) (by decide) (by decide)
theorem V_main_arg3 (c : Dev nD) : V m c main_arg3 = m ((c : Thread nD τ).loc main_arg3) := V_arg m c _ (by decide) (by decide) (by decide) (by decide)
theorem V_main_arg4 (c : Dev nD) : V m c main_arg4 = m ((c : Thread nD τ).loc main_arg4) := V_arg m c _ (by decide) (by decide) (by decide) (by decide)
theorem V_main_arg5 (c : Dev nD) : V m c main_arg5 = m ((c : Thread nD τ).loc main_arg5) := V_arg m c _ (by decide) (by decide) (by decide) (by decide)
theorem V_main_arg6 (c : Dev nD) : V m c main_arg6 = m ((c : Thread nD τ).loc main_arg6) := V_arg m c _ (by decide) (by decide) (by decide) (by decide)
theorem V_main_arg7 (c : Dev nD) : V m c main_arg7 = m ((c : Thread nD τ).loc main_arg7) := V_arg m c _ (by decide) (by decide) (by decide) (by decide)
theorem V_main_arg8 (c : Dev nD) : V m c main_arg8 = m ((c : Thread nD τ).loc main_arg8) := V_arg m c _ (by decide) (by decide) (by decide) (by decide)
theorem V_main_arg9 (c : Dev nD) : V m c main_arg9 = m ((c : Thread nD τ).loc main_arg9) := V_arg m c _ (by decide) (by decide) (by decide) (by decide)
theorem V_main_arg10 (c : Dev nD) : V m c main_arg10 = m ((c : Thread nD τ).loc main_arg10) := V_arg m c _ (by decide) (by decide) (by decide) (by decide)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not: the three row
    windows are fetched at every point; the stacked weights and the bias row only at the first, and their block
    index never moves. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- Every argument array ends as launched: x, prev_h and prev_c are staged inputs, never written back; the eight
    weight and bias arrays are staged by no window and written by no host operation. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's accesses -/

abbrev rRows : Rect S256x1024 := Rect.unit (s := S256x1024) ![0, 0] S256x1024.size inb_S256x1024_S256x1024_0_0
abbrev rWx : Rect S4096x2048 := Rect.unit (s := S4096x2048) ![0, 0] S4096x1024.size inb_S4096x2048_S4096x1024_0_0
abbrev rWh : Rect S4096x2048 := Rect.unit (s := S4096x2048) ![0, 1024] S4096x1024.size inb_S4096x2048_S4096x1024_0_1024
abbrev rBias : Rect S1x4096 := Rect.unit (s := S1x4096) ![0, 0] S1x4096.size inb_S1x4096_S1x4096_0_0
abbrev rPlane0 : Rect S2x256x1024 := Rect.unit (s := S2x256x1024) ![0, 0, 0] S1x256x1024.size inb_S2x256x1024_S1x256x1024_0_0_0
abbrev rPlane1 : Rect S2x256x1024 := Rect.unit (s := S2x256x1024) ![1, 0, 0] S1x256x1024.size inb_S2x256x1024_S1x256x1024_1_0_0

/-! ## What the body leaves in the output window's buffer -/

/-- The new hidden state, as the body computes it from what it loaded: plane 0 of the output block. -/
abbrev payH (x0 x1 x2 : Vec F S256x1024 .f32) (x3 : Vec F S4096x2048 .bf16) (x4 : Vec F S1x4096 .f32) : FVec F S1x256x1024 .f32 :=
  k0_pay3 (View.ld x0 rRows) (View.ld x1 rRows) (View.ld x2 rRows) (View.ld x3 rWx) (View.ld x3 rWh) (View.ld x4 rBias)
/-- The new cell state: plane 1 of the output block. -/
abbrev payC (x0 x1 x2 : Vec F S256x1024 .f32) (x3 : Vec F S4096x2048 .bf16) (x4 : Vec F S1x4096 .f32) : FVec F S1x256x1024 .f32 :=
  k0_pay4 (View.ld x0 rRows) (View.ld x1 rRows) (View.ld x2 rRows) (View.ld x3 rWx) (View.ld x3 rWh) (View.ld x4 rBias)

/-- The output window's staging buffer after the body: its two stores laid over one another, the later (plane 1,
    the cell state) first. -/
def out5 (x0 x1 x2 : Vec F S256x1024 .f32) (x3 : Vec F S4096x2048 .bf16) (x4 : Vec F S1x4096 .f32) : Vec F S2x256x1024 .f32 :=
  View.canon [⟨rPlane1, payC x0 x1 x2 x3 x4⟩, ⟨rPlane0, payH x0 x1 x2 x3 x4⟩]

/-- The two planes tile the [2, 256, 1024] buffer. -/
theorem cover5 (p1 p0 : Vec F S1x256x1024 .f32) (y : S2x256x1024.Idx) :
    ∃ pc ∈ ([⟨rPlane1, p1⟩, ⟨rPlane0, p0⟩] : List (View.Piece (Elt F) S2x256x1024 .f32)), y ∈ pc.1.set :=
  View.cover_of_tiled [⟨rPlane1, p1⟩, ⟨rPlane0, p0⟩] S1x256x1024.size (by rfl) y

/-! ## The body's triple -/

set_option maxHeartbeats 1000000 in
/-- The body on whole staging memrefs, the five inputs' at read contents and the output's at anything, runs to the
    continuation holding the inputs' as they were and the output's at out5 of them. (The body also loads each output
    plane before storing it and uses neither load.) -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S4096x2048 .bf16) (harg4 : arg4.IsWhole) (arg5 : Memref sig .tc .vmem S1x4096 .f32) (harg5 : arg5.IsWhole) (arg6 : Memref sig .tc .vmem S2x256x1024 .f32) (harg6 : arg6.IsWhole)
    (x0 x1 x2 : Vec F S256x1024 .f32) (x3 : Vec F S4096x2048 .bf16) (x4 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5 x0 x1 x2 x3 x4)) -∗ K ⟨⟩))
      ⊢ wp frame (wpE (defs₀ (F := F)) Variants.none c none) E (cc0__lstm_kernel i arg1 harg1 arg2 harg2 arg3 harg3 arg4 harg4 arg5 harg5 arg6 harg6) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _ _)

/-! ## The pipeline's proof data -/

/-- The proof data of the pipeline on core c: the arrays as the region finds them; after the body at point t each
    input's buffer still at its block and the output's at out5 of the input blocks; nothing of the kernel's own. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = out5 (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body obligation, at a generic point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so the body's triple applies; the invariant and the
    core's duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and in every final state each array a window stages holds what
    the write-backs left (the inputs their entry contents) and every other unscoped buffer what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs and its eleven argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Frame

end
-- ==== Proof.KernelIdealFrame.lean ====
/-
  The frame of the LSTM-cell kernel, at any float instance.

  @main first stacks the four gate weight matrices along the rows into one [4096, 2048] matrix (rounded to bf16),
  stacks the four bias vectors into one [1, 4096] row, and then launches ONE region over 64 grid points: point t
  stages rows 256·t … 256·t+255 of x, prev_h and prev_c, the whole stacked weight matrix and bias row (both fetched
  once, at the first point), and writes back the [2, 256, 1024] block (·, 256·t …, ·) of the result.

  Here: what the region finds in every buffer (V: the host operations' results, the arguments untouched), what the
  body leaves in the output window's staging buffer as a function of the staged input blocks (out5: its two stores,
  plane 1 then plane 0, laid over one another), the body's triple, the proof data of the pipeline, the run of @main
  to the library's frame post, and from it that every argument array ends as it began.
-/
import proofs.«114699_j51376398795261_2_alg».proof.Proof.Gen.KernelIdeal.Launch
import proofs.«114699_j51376398795261_2_alg».proof.Proof.Gen.KernelIdeal.Skeleton
import proofs.«114699_j51376398795261_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core c's buffers when the region is entered: after the four host operations (the two stackings, the rounding
    of the stacked weights, the reshape of the stacked bias). -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument array: the region finds each as launched. -/
theorem V_arg (c : Dev nD) (b : Ref sig .tc)
    (h0 : b ≠ main_v0) (h1 : b ≠ main_v1) (h2 : b ≠ main_v2) (h3 : b ≠ main_v3) :
    V m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.reshape_writes, Finset.mem_singleton]
    exact ⟨StableHlo.devRef_ne_of_ne h0, StableHlo.devRef_ne_of_ne h1, StableHlo.devRef_ne_of_ne h2, StableHlo.devRef_ne_of_ne h3⟩))

theorem V_main_arg0 (c : Dev nD) : V m c main_arg0 = m ((c : Thread nD τ).loc main_arg0) := V_arg m c _ (by decide) (by decide) (by decide) (by decide)
theorem V_main_arg1 (c : Dev nD) : V m c main_arg1 = m ((c : Thread nD τ).loc main_arg1) := V_arg m c _ (by decide) (by decide) (by decide) (by decide)
theorem V_main_arg2 (c : Dev nD) : V m c main_arg2 = m ((c : Thread nD τ).loc main_arg2) := V_arg m c _ (by decide) (by decide) (by decide) (by decide)
theorem V_main_arg3 (c : Dev nD) : V m c main_arg3 = m ((c : Thread nD τ).loc main_arg3) := V_arg m c _ (by decide) (by decide) (by decide) (by decide)
theorem V_main_arg4 (c : Dev nD) : V m c main_arg4 = m ((c : Thread nD τ).loc main_arg4) := V_arg m c _ (by decide) (by decide) (by decide) (by decide)
theorem V_main_arg5 (c : Dev nD) : V m c main_arg5 = m ((c : Thread nD τ).loc main_arg5) := V_arg m c _ (by decide) (by decide) (by decide) (by decide)
theorem V_main_arg6 (c : Dev nD) : V m c main_arg6 = m ((c : Thread nD τ).loc main_arg6) := V_arg m c _ (by decide) (by decide) (by decide) (by decide)
theorem V_main_arg7 (c : Dev nD) : V m c main_arg7 = m ((c : Thread nD τ).loc main_arg7) := V_arg m c _ (by decide) (by decide) (by decide) (by decide)
theorem V_main_arg8 (c : Dev nD) : V m c main_arg8 = m ((c : Thread nD τ).loc main_arg8) := V_arg m c _ (by decide) (by decide) (by decide) (by decide)
theorem V_main_arg9 (c : Dev nD) : V m c main_arg9 = m ((c : Thread nD τ).loc main_arg9) := V_arg m c _ (by decide) (by decide) (by decide) (by decide)
theorem V_main_arg10 (c : Dev nD) : V m c main_arg10 = m ((c : Thread nD τ).loc main_arg10) := V_arg m c _ (by decide) (by decide) (by decide) (by decide)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not: the three row
    windows are fetched at every point; the stacked weights and the bias row only at the first, and their block
    index never moves. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- Every argument array ends as launched: x, prev_h and prev_c are staged inputs, never written back; the eight
    weight and bias arrays are staged by no window and written by no host operation. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's accesses -/

abbrev rRows : Rect S256x1024 := Rect.unit (s := S256x1024) ![0, 0] S256x1024.size inb_S256x1024_S256x1024_0_0
abbrev rWx : Rect S4096x2048 := Rect.unit (s := S4096x2048) ![0, 0] S4096x1024.size inb_S4096x2048_S4096x1024_0_0
abbrev rWh : Rect S4096x2048 := Rect.unit (s := S4096x2048) ![0, 1024] S4096x1024.size inb_S4096x2048_S4096x1024_0_1024
abbrev rBias : Rect S1x4096 := Rect.unit (s := S1x4096) ![0, 0] S1x4096.size inb_S1x4096_S1x4096_0_0
abbrev rPlane0 : Rect S2x256x1024 := Rect.unit (s := S2x256x1024) ![0, 0, 0] S1x256x1024.size inb_S2x256x1024_S1x256x1024_0_0_0
abbrev rPlane1 : Rect S2x256x1024 := Rect.unit (s := S2x256x1024) ![1, 0, 0] S1x256x1024.size inb_S2x256x1024_S1x256x1024_1_0_0

/-! ## What the body leaves in the output window's buffer -/

/-- The new hidden state, as the body computes it from what it loaded: plane 0 of the output block. -/
abbrev payH (x0 x1 x2 : Vec F S256x1024 .f32) (x3 : Vec F S4096x2048 .bf16) (x4 : Vec F S1x4096 .f32) : FVec F S1x256x1024 .f32 :=
  k0_pay3 (View.ld x0 rRows) (View.ld x1 rRows) (View.ld x2 rRows) (View.ld x3 rWx) (View.ld x3 rWh) (View.ld x4 rBias)
/-- The new cell state: plane 1 of the output block. -/
abbrev payC (x0 x1 x2 : Vec F S256x1024 .f32) (x3 : Vec F S4096x2048 .bf16) (x4 : Vec F S1x4096 .f32) : FVec F S1x256x1024 .f32 :=
  k0_pay4 (View.ld x0 rRows) (View.ld x1 rRows) (View.ld x2 rRows) (View.ld x3 rWx) (View.ld x3 rWh) (View.ld x4 rBias)

/-- The output window's staging buffer after the body: its two stores laid over one another, the later (plane 1,
    the cell state) first. -/
def out5 (x0 x1 x2 : Vec F S256x1024 .f32) (x3 : Vec F S4096x2048 .bf16) (x4 : Vec F S1x4096 .f32) : Vec F S2x256x1024 .f32 :=
  View.canon [⟨rPlane1, payC x0 x1 x2 x3 x4⟩, ⟨rPlane0, payH x0 x1 x2 x3 x4⟩]

/-- The two planes tile the [2, 256, 1024] buffer. -/
theorem cover5 (p1 p0 : Vec F S1x256x1024 .f32) (y : S2x256x1024.Idx) :
    ∃ pc ∈ ([⟨rPlane1, p1⟩, ⟨rPlane0, p0⟩] : List (View.Piece (Elt F) S2x256x1024 .f32)), y ∈ pc.1.set :=
  View.cover_of_tiled [⟨rPlane1, p1⟩, ⟨rPlane0, p0⟩] S1x256x1024.size (by rfl) y

/-! ## The body's triple -/

set_option maxHeartbeats 1000000 in
/-- The body on whole staging memrefs, the five inputs' at read contents and the output's at anything, runs to the
    continuation holding the inputs' as they were and the output's at out5 of them. (The body also loads each output
    plane before storing it and uses neither load.) -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S4096x2048 .bf16) (harg4 : arg4.IsWhole) (arg5 : Memref sig .tc .vmem S1x4096 .f32) (harg5 : arg5.IsWhole) (arg6 : Memref sig .tc .vmem S2x256x1024 .f32) (harg6 : arg6.IsWhole)
    (x0 x1 x2 : Vec F S256x1024 .f32) (x3 : Vec F S4096x2048 .bf16) (x4 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5 x0 x1 x2 x3 x4)) -∗ K ⟨⟩))
      ⊢ wp frame (wpE (defs₀ (F := F)) Variants.none c none) E (cc0__lstm_kernel i arg1 harg1 arg2 harg2 arg3 harg3 arg4 harg4 arg5 harg5 arg6 harg6) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _ _)

/-! ## The pipeline's proof data -/

/-- The proof data of the pipeline on core c: the arrays as the region finds them; after the body at point t each
    input's buffer still at its block and the output's at out5 of the input blocks; nothing of the kernel's own. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = out5 (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body obligation, at a generic point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so the body's triple applies; the invariant and the
    core's duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and in every final state each array a window stages holds what
    the write-backs left (the inputs their entry contents) and every other unscoped buffer what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs and its eleven argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Frame

end
-- ==== Proof.LstmSpec.lean ====
/-
  The LSTM cell both programs compute, as one function of the eleven argument arrays over the extended reals.

  For batch row r and hidden unit j, each of the four gates g ∈ {i, f, o, z} has the pre-activation
      pre_g(r, j) = ∑_{k<1024} x(r,k)·W_g(j,k) + ∑_{k<1024} h(r,k)·W_g(j,1024+k) + b_g(j),
  the input part and the recurrent part of the row [x(r,·), h(r,·)] against row j of W_g. Then
      c'(r,j) = σ(pre_i)·tanh(pre_z) + σ(pre_f)·c(r,j),     h'(r,j) = σ(pre_o)·tanh(c'(r,j)),
  and the result array is [h', c'] stacked on a new leading axis.

  The one law used beyond the definitions: a sum over 2048 = 1024 + 1024 indices is the sum over the first 1024
  plus the sum over the last 1024 (addition on the extended reals is commutative and associative, so this needs no
  finiteness).
-/
import Idealize.ShloMosaic.PureOps.Ideal
import Idealize.ShloMosaic.Lib.ValueIdx

noncomputable section

namespace Cert.LstmSpec

open Idealize.ShloMosaic Idealize.ShloMosaic.ValueIdx

abbrev SRows : Shape := ⟨2, ![16384, 1024]⟩
abbrev SGate : Shape := ⟨2, ![1024, 2048]⟩
abbrev SBias : Shape := ⟨1, ![1024]⟩
abbrev SOut : Shape := ⟨3, ![2, 16384, 1024]⟩

/-- Column k of the input half and column 1024 + k of the recurrent half of a gate's weight row. -/
abbrev colX (k : Fin 1024) : Fin 2048 := ⟨k.val, by have := k.isLt; omega⟩
abbrev colH (k : Fin 1024) : Fin 2048 := ⟨1024 + k.val, by have := k.isLt; omega⟩

/-- A gate's pre-activation at batch row r, hidden unit j. -/
def pre (x h : SRows.Idx → EReal) (W : SGate.Idx → EReal) (b : SBias.Idx → EReal) (r : Fin 16384) (j : Fin 1024) : EReal :=
  (∑ k : Fin 1024, x (ix2 r k) * W (ix2 j (colX k))) + (∑ k : Fin 1024, h (ix2 r k) * W (ix2 j (colH k))) + b (ix1 j)

/-- The new cell state. -/
def cellNew (x h c : SRows.Idx → EReal) (Wi : SGate.Idx → EReal) (bi : SBias.Idx → EReal) (Wf : SGate.Idx → EReal) (bf : SBias.Idx → EReal)
    (Wz : SGate.Idx → EReal) (bz : SBias.Idx → EReal) (r : Fin 16384) (j : Fin 1024) : EReal :=
  Ideal.logistic (pre x h Wi bi r j) * Ideal.tanh (pre x h Wz bz r j) + Ideal.logistic (pre x h Wf bf r j) * c (ix2 r j)

/-- The new hidden state. -/
def hiddenNew (x h c : SRows.Idx → EReal) (Wi : SGate.Idx → EReal) (bi : SBias.Idx → EReal) (Wf : SGate.Idx → EReal) (bf : SBias.Idx → EReal)
    (Wo : SGate.Idx → EReal) (bo : SBias.Idx → EReal) (Wz : SGate.Idx → EReal) (bz : SBias.Idx → EReal) (r : Fin 16384) (j : Fin 1024) : EReal :=
  Ideal.logistic (pre x h Wo bo r j) * Ideal.tanh (cellNew x h c Wi bi Wf bf Wz bz r j)

/-- The result array: plane 0 the new hidden state, plane 1 the new cell state. -/
def G (x h c : SRows.Idx → EReal) (Wi : SGate.Idx → EReal) (bi : SBias.Idx → EReal) (Wf : SGate.Idx → EReal) (bf : SBias.Idx → EReal)
    (Wo : SGate.Idx → EReal) (bo : SBias.Idx → EReal) (Wz : SGate.Idx → EReal) (bz : SBias.Idx → EReal) : SOut.Idx → EReal :=
  fun i => if (i 0).val = 0 then hiddenNew x h c Wi bi Wf bf Wo bo Wz bz (i 1) (i 2) else cellNew x h c Wi bi Wf bf Wz bz (i 1) (i 2)

/-- A sum over 2048 indices is the sum over the first 1024 plus the sum over the last 1024. -/
theorem sum_split (f : Fin 2048 → EReal) : ∑ k : Fin 2048, f k = (∑ k : Fin 1024, f (colX k)) + ∑ k : Fin 1024, f (colH k) := by
  have h := Fin.sum_univ_add (M := EReal) (a := 1024) (b := 1024) (fun k : Fin (1024 + 1024) => f ⟨k.val, k.isLt⟩)
  refine h.trans ?_
  congr 1

end Cert.LstmSpec

end
-- ==== Proof.KernelPayload.lean ====
/-
  The body's arithmetic, read at a coordinate, at the ideal instance.

  The body forms ONE [256, 4096] matrix of pre-activations for its 256 batch rows: column n = 1024·g + j is gate g's
  (g = 0 … 3 for i, f, o, z) hidden unit j,
      s(a, n) = ∑_{k<1024} xblk(a,k)·Wx(n,k) + ∑_{k<1024} hblk(a,k)·Wh(n,k) + bias(0, n),
  Wx and Wh the left and right halves of the stacked weight matrix (each matrix product a plain sum at the ideal
  instance, its zero accumulator adding nothing; rounding to bf16 the identity). It then slices the four gates'
  columns out, and stores  σ(s_o)·tanh(c')  as plane 0 and  c' = σ(s_i)·tanh(s_z) + σ(s_f)·cblk  as plane 1.
-/
import proofs.«114699_j51376398795261_2_alg».proof.Proof.Gen.KernelIdeal.Skeleton
import proofs.«114699_j51376398795261_2_alg».proof.Proof.LstmSpec
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.LstmSpec

/-! ## One matrix product of the body at an index -/

theorem lhs_0 (i : S256x4096.Idx) (q : dot_S256x1024_S4096x1024_S256x4096_1_1_0_0_n_n.contr.Idx) : (dot_S256x1024_S4096x1024_S256x4096_1_1_0_0_n_n.lhsIdx i q 0).val = (i 0).val := by
  unfold DotDims.lhsIdx
  rw [dif_neg (show ¬(0 : Fin S256x1024.rank) ∈ dot_S256x1024_S4096x1024_S256x4096_1_1_0_0_n_n.lhsBatch by decide), dif_pos (show (0 : Fin S256x1024.rank) ∈ dot_S256x1024_S4096x1024_S256x4096_1_1_0_0_n_n.lhsNonContracting by decide)]
  rfl
theorem lhs_1 (i : S256x4096.Idx) (q : dot_S256x1024_S4096x1024_S256x4096_1_1_0_0_n_n.contr.Idx) : (dot_S256x1024_S4096x1024_S256x4096_1_1_0_0_n_n.lhsIdx i q 1).val = (q ⟨0, by decide⟩).val :=
  dot_S256x1024_S4096x1024_S256x4096_1_1_0_0_n_n.lhsIdx_val_of_single rfl i q
theorem rhs_0 (i : S256x4096.Idx) (q : dot_S256x1024_S4096x1024_S256x4096_1_1_0_0_n_n.contr.Idx) : (dot_S256x1024_S4096x1024_S256x4096_1_1_0_0_n_n.rhsIdx i q 0).val = (i 1).val := by
  unfold DotDims.rhsIdx
  rw [dif_neg (show ¬(0 : Fin S4096x1024.rank) ∈ dot_S256x1024_S4096x1024_S256x4096_1_1_0_0_n_n.rhsBatch by decide), dif_pos (show (0 : Fin S4096x1024.rank) ∈ dot_S256x1024_S4096x1024_S256x4096_1_1_0_0_n_n.rhsNonContracting by decide)]
  rfl
theorem rhs_1 (i : S256x4096.Idx) (q : dot_S256x1024_S4096x1024_S256x4096_1_1_0_0_n_n.contr.Idx) : (dot_S256x1024_S4096x1024_S256x4096_1_1_0_0_n_n.rhsIdx i q 1).val = (q ⟨0, by decide⟩).val :=
  dot_S256x1024_S4096x1024_S256x4096_1_1_0_0_n_n.rhsIdx_val_of_single rfl i q

/-- A [256, 1024] × [4096, 1024]ᵀ product into a zero accumulator, at (a, n): the sum over the shared axis. -/
theorem gemm_apply (l : FVec Ideal S256x1024 .bf16) (r : FVec Ideal S4096x1024 .bf16) (a : Fin 256) (n : Fin 4096) :
    matmul dot_S256x1024_S4096x1024_S256x4096_1_1_0_0_n_n none l r (constant (F := Ideal) S256x4096 .f32 0x00000000#32) (ix2 a n)
      = ∑ k : Fin 1024, l (ix2 a k) * r (ix2 n k) := by
  simp only [matmul]
  rw [Ideal.matmul_constant_zero_apply, ← Equiv.sum_comp (ValueIdx.contrEquiv1 dot_S256x1024_S4096x1024_S256x4096_1_1_0_0_n_n 1024 rfl rfl).symm]
  refine Finset.sum_congr rfl fun k _ => ?_
  have hk := ValueIdx.contrEquiv1_symm_val dot_S256x1024_S4096x1024_S256x4096_1_1_0_0_n_n 1024 rfl rfl k
  have el : dot_S256x1024_S4096x1024_S256x4096_1_1_0_0_n_n.lhsIdx (ix2 a n) ((ValueIdx.contrEquiv1 dot_S256x1024_S4096x1024_S256x4096_1_1_0_0_n_n 1024 rfl rfl).symm k) = ix2 a k := funext fun b => Fin.ext (by
    match b with
    | ⟨0, _⟩ => exact lhs_0 _ _
    | ⟨1, _⟩ => exact (lhs_1 _ _).trans hk)
  have er : dot_S256x1024_S4096x1024_S256x4096_1_1_0_0_n_n.rhsIdx (ix2 a n) ((ValueIdx.contrEquiv1 dot_S256x1024_S4096x1024_S256x4096_1_1_0_0_n_n 1024 rfl rfl).symm k) = ix2 n k := funext fun b => Fin.ext (by
    match b with
    | ⟨0, _⟩ => exact rhs_0 _ _
    | ⟨1, _⟩ => exact (rhs_1 _ _).trans hk)
  rw [el, er]

/-! ## The pre-activations -/

/-- The body's pre-activation matrix at (a, n). -/
theorem preact_apply (v0 v2 : Vec Ideal S256x1024 .f32) (v5 v7 : Vec Ideal S4096x1024 .bf16) (v12 : Vec Ideal S1x4096 .f32) (a : Fin 256) (n : Fin 4096) :
    k0_pay1 v0 v2 v5 v7 v12 (ix2 a n)
      = (∑ k : Fin 1024, v0 (ix2 a k) * v5 (ix2 n k)) + (∑ k : Fin 1024, v2 (ix2 a k) * v7 (ix2 n k)) + v12 (ix2 (0 : Fin 1) n) := by
  unfold k0_pay1
  simp only [shapeCast_self]
  show matmul dot_S256x1024_S4096x1024_S256x4096_1_1_0_0_n_n none (truncf .bf16 v0 bitsLt_bf16_f32) v5 (constant (F := Ideal) S256x4096 .f32 0x00000000#32) (ix2 a n)
      + matmul dot_S256x1024_S4096x1024_S256x4096_1_1_0_0_n_n none (truncf .bf16 v2 bitsLt_bf16_f32) v7 (constant (F := Ideal) S256x4096 .f32 0x00000000#32) (ix2 a n)
      + broadcastTo S256x4096 v12 broadcasts_S1x4096_S256x4096 (ix2 a n) = _
  rw [gemm_apply, gemm_apply,
    broadcastTo_apply v12 broadcasts_S1x4096_S256x4096 (ix2 a n) (ix2 (0 : Fin 1) n) (fun b => match b with
      | ⟨0, _⟩ => by show 0 = if (1 : Nat) = 1 then 0 else _; rw [if_pos rfl]
      | ⟨1, _⟩ => by show n.val = if (4096 : Nat) = 1 then 0 else n.val; rw [if_neg (by decide)])]
  rfl

/-! ## The gates' columns and the stored planes -/

/-- Gate g's hidden unit j sits in column 1024·g + j of the pre-activation matrix. -/
abbrev gateCol (g : Fin 4) (j : Fin 1024) : Fin 4096 := ⟨1024 * g.val + j.val, by have := g.isLt; have := j.isLt; omega⟩

/-- A [256, 1024] slice of the pre-activation matrix starting at column 1024·g, at (a, j). -/
theorem slice_apply (s : FVec Ideal S256x4096 .f32) (g : Fin 4) (hs : S256x4096.Slices ![0, 1024 * g.val] S256x1024) (a : Fin 256) (j : Fin 1024) :
    extractStridedSlice S256x1024 ![0, 1024 * g.val] s hs (ix2 a j) = s (ix2 a (gateCol g j)) :=
  extractStridedSlice_apply ![0, 1024 * g.val] s hs (ix2 a j) (ix2 a (gateCol g j)) (fun b => match b with
    | ⟨0, _⟩ => (Nat.zero_add _).symm
    | ⟨1, _⟩ => rfl)

/-- A gate's pre-activation, when the loaded row blocks hold rows of x and prev_h and the loaded weight halves and
    bias hold the gate's weights and bias at the gate's column. -/
theorem preact_gate (x h : SRows.Idx → EReal) (W : SGate.Idx → EReal) (b : SBias.Idx → EReal)
    (v0 v2 : Vec Ideal S256x1024 .f32) (v5 v7 : Vec Ideal S4096x1024 .bf16) (v12 : Vec Ideal S1x4096 .f32)
    (a : Fin 256) (r : Fin 16384) (j : Fin 1024) (n : Fin 4096)
    (h0 : ∀ k, v0 (ix2 a k) = x (ix2 r k)) (h2 : ∀ k, v2 (ix2 a k) = h (ix2 r k))
    (hx : ∀ k, v5 (ix2 n k) = W (ix2 j (colX k))) (hh : ∀ k, v7 (ix2 n k) = W (ix2 j (colH k))) (hb : v12 (ix2 (0 : Fin 1) n) = b (ix1 j)) :
    k0_pay1 v0 v2 v5 v7 v12 (ix2 a n) = pre x h W b r j := by
  rw [preact_apply]
  unfold pre
  simp only [h0, h2, hx, hh, hb]

/-- The new cell state the body computes, at (a, j) of its block. -/
theorem cell_block (x h c : SRows.Idx → EReal) (Wi : SGate.Idx → EReal) (bi : SBias.Idx → EReal) (Wf : SGate.Idx → EReal) (bf : SBias.Idx → EReal) (Wo : SGate.Idx → EReal) (bo : SBias.Idx → EReal) (Wz : SGate.Idx → EReal) (bz : SBias.Idx → EReal) (v0 v2 v4 : Vec Ideal S256x1024 .f32) (v5 v7 : Vec Ideal S4096x1024 .bf16) (v12 : Vec Ideal S1x4096 .f32)
    (a : Fin 256) (r : Fin 16384) (j : Fin 1024) (h0 : ∀ k, v0 (ix2 a k) = x (ix2 r k)) (h2 : ∀ k, v2 (ix2 a k) = h (ix2 r k)) (h4 : v4 (ix2 a j) = c (ix2 r j))
    (hxi : ∀ k, v5 (ix2 (gateCol 0 j) k) = Wi (ix2 j (colX k))) (hhi : ∀ k, v7 (ix2 (gateCol 0 j) k) = Wi (ix2 j (colH k))) (hbi : v12 (ix2 (0 : Fin 1) (gateCol 0 j)) = bi (ix1 j)) (hxf : ∀ k, v5 (ix2 (gateCol 1 j) k) = Wf (ix2 j (colX k))) (hhf : ∀ k, v7 (ix2 (gateCol 1 j) k) = Wf (ix2 j (colH k))) (hbf : v12 (ix2 (0 : Fin 1) (gateCol 1 j)) = bf (ix1 j)) (hxz : ∀ k, v5 (ix2 (gateCol 3 j) k) = Wz (ix2 j (colX k))) (hhz : ∀ k, v7 (ix2 (gateCol 3 j) k) = Wz (ix2 j (colH k))) (hbz : v12 (ix2 (0 : Fin 1) (gateCol 3 j)) = bz (ix1 j)) :
    k0_pay2 v0 v2 v4 v5 v7 v12 (ix2 a j) = cellNew x h c Wi bi Wf bf Wz bz r j := by
  unfold k0_pay2
  show Ideal.logistic (extractStridedSlice S256x1024 ![0, 1024 * (0 : Fin 4).val] (k0_pay1 v0 v2 v5 v7 v12) slices_S256x4096_o0_0_S256x1024 (ix2 a j))
        * Ideal.tanh (extractStridedSlice S256x1024 ![0, 1024 * (3 : Fin 4).val] (k0_pay1 v0 v2 v5 v7 v12) slices_S256x4096_o0_3072_S256x1024 (ix2 a j))
      + Ideal.logistic (extractStridedSlice S256x1024 ![0, 1024 * (1 : Fin 4).val] (k0_pay1 v0 v2 v5 v7 v12) slices_S256x4096_o0_1024_S256x1024 (ix2 a j))
        * v4 (ix2 a j) = _
  rw [slice_apply, slice_apply, slice_apply,
    preact_gate x h Wi bi v0 v2 v5 v7 v12 a r j _ h0 h2 hxi hhi hbi,
    preact_gate x h Wz bz v0 v2 v5 v7 v12 a r j _ h0 h2 hxz hhz hbz,
    preact_gate x h Wf bf v0 v2 v5 v7 v12 a r j _ h0 h2 hxf hhf hbf, h4]
  rfl

/-- Plane 1 of the stored block at (0, a, j): the new cell state. -/
theorem planeC_block (x h c : SRows.Idx → EReal) (Wi : SGate.Idx → EReal) (bi : SBias.Idx → EReal) (Wf : SGate.Idx → EReal) (bf : SBias.Idx → EReal) (Wo : SGate.Idx → EReal) (bo : SBias.Idx → EReal) (Wz : SGate.Idx → EReal) (bz : SBias.Idx → EReal) (v0 v2 v4 : Vec Ideal S256x1024 .f32) (v5 v7 : Vec Ideal S4096x1024 .bf16) (v12 : Vec Ideal S1x4096 .f32)
    (a : Fin 256) (r : Fin 16384) (j : Fin 1024) (h0 : ∀ k, v0 (ix2 a k) = x (ix2 r k)) (h2 : ∀ k, v2 (ix2 a k) = h (ix2 r k)) (h4 : v4 (ix2 a j) = c (ix2 r j))
    (hxi : ∀ k, v5 (ix2 (gateCol 0 j) k) = Wi (ix2 j (colX k))) (hhi : ∀ k, v7 (ix2 (gateCol 0 j) k) = Wi (ix2 j (colH k))) (hbi : v12 (ix2 (0 : Fin 1) (gateCol 0 j)) = bi (ix1 j)) (hxf : ∀ k, v5 (ix2 (gateCol 1 j) k) = Wf (ix2 j (colX k))) (hhf : ∀ k, v7 (ix2 (gateCol 1 j) k) = Wf (ix2 j (colH k))) (hbf : v12 (ix2 (0 : Fin 1) (gateCol 1 j)) = bf (ix1 j)) (hxz : ∀ k, v5 (ix2 (gateCol 3 j) k) = Wz (ix2 j (colX k))) (hhz : ∀ k, v7 (ix2 (gateCol 3 j) k) = Wz (ix2 j (colH k))) (hbz : v12 (ix2 (0 : Fin 1) (gateCol 3 j)) = bz (ix1 j)) :
    k0_pay4 v0 v2 v4 v5 v7 v12 (ix3 (0 : Fin 1) a j) = cellNew x h c Wi bi Wf bf Wz bz r j := by
  unfold k0_pay4
  refine (shapeCast_addUnit_apply ![256, 1024] (k0_pay2 v0 v2 v4 v5 v7 v12) shapeCasts_S256x1024_S1x256x1024 (ix3 (0 : Fin 1) a j)).trans ?_
  have e : (fun b : Fin 2 => (ix3 (0 : Fin 1) a j) b.succ) = ix2 a j := funext fun b => by match b with | ⟨0, _⟩ => rfl | ⟨1, _⟩ => rfl
  exact (congrArg (k0_pay2 v0 v2 v4 v5 v7 v12) e).trans
    (cell_block x h c Wi bi Wf bf Wo bo Wz bz v0 v2 v4 v5 v7 v12 a r j h0 h2 h4 hxi hhi hbi hxf hhf hbf hxz hhz hbz)

/-- Plane 0 of the stored block at (0, a, j): the new hidden state. -/
theorem planeH_block (x h c : SRows.Idx → EReal) (Wi : SGate.Idx → EReal) (bi : SBias.Idx → EReal) (Wf : SGate.Idx → EReal) (bf : SBias.Idx → EReal) (Wo : SGate.Idx → EReal) (bo : SBias.Idx → EReal) (Wz : SGate.Idx → EReal) (bz : SBias.Idx → EReal) (v0 v2 v4 : Vec Ideal S256x1024 .f32) (v5 v7 : Vec Ideal S4096x1024 .bf16) (v12 : Vec Ideal S1x4096 .f32)
    (a : Fin 256) (r : Fin 16384) (j : Fin 1024) (h0 : ∀ k, v0 (ix2 a k) = x (ix2 r k)) (h2 : ∀ k, v2 (ix2 a k) = h (ix2 r k)) (h4 : v4 (ix2 a j) = c (ix2 r j))
    (hxi : ∀ k, v5 (ix2 (gateCol 0 j) k) = Wi (ix2 j (colX k))) (hhi : ∀ k, v7 (ix2 (gateCol 0 j) k) = Wi (ix2 j (colH k))) (hbi : v12 (ix2 (0 : Fin 1) (gateCol 0 j)) = bi (ix1 j)) (hxf : ∀ k, v5 (ix2 (gateCol 1 j) k) = Wf (ix2 j (colX k))) (hhf : ∀ k, v7 (ix2 (gateCol 1 j) k) = Wf (ix2 j (colH k))) (hbf : v12 (ix2 (0 : Fin 1) (gateCol 1 j)) = bf (ix1 j)) (hxo : ∀ k, v5 (ix2 (gateCol 2 j) k) = Wo (ix2 j (colX k))) (hho : ∀ k, v7 (ix2 (gateCol 2 j) k) = Wo (ix2 j (colH k))) (hbo : v12 (ix2 (0 : Fin 1) (gateCol 2 j)) = bo (ix1 j)) (hxz : ∀ k, v5 (ix2 (gateCol 3 j) k) = Wz (ix2 j (colX k))) (hhz : ∀ k, v7 (ix2 (gateCol 3 j) k) = Wz (ix2 j (colH k))) (hbz : v12 (ix2 (0 : Fin 1) (gateCol 3 j)) = bz (ix1 j)) :
    k0_pay3 v0 v2 v4 v5 v7 v12 (ix3 (0 : Fin 1) a j) = hiddenNew x h c Wi bi Wf bf Wo bo Wz bz r j := by
  unfold k0_pay3
  refine (shapeCast_addUnit_apply ![256, 1024] _ shapeCasts_S256x1024_S1x256x1024 (ix3 (0 : Fin 1) a j)).trans ?_
  have e : (fun b : Fin 2 => (ix3 (0 : Fin 1) a j) b.succ) = ix2 a j := funext fun b => by match b with | ⟨0, _⟩ => rfl | ⟨1, _⟩ => rfl
  rw [e]
  show Ideal.logistic (extractStridedSlice S256x1024 ![0, 1024 * (2 : Fin 4).val] (k0_pay1 v0 v2 v5 v7 v12) slices_S256x4096_o0_2048_S256x1024 (ix2 a j))
        * Ideal.tanh (k0_pay2 v0 v2 v4 v5 v7 v12 (ix2 a j)) = _
  rw [slice_apply, preact_gate x h Wo bo v0 v2 v5 v7 v12 a r j _ h0 h2 hxo hho hbo,
    cell_block x h c Wi bi Wf bf Wo bo Wz bz v0 v2 v4 v5 v7 v12 a r j h0 h2 h4 hxi hhi hbi hxf hhf hbf hxz hhz hbz]
  rfl

end Cert.KernelIdeal.Payload

end
-- ==== Proof.KernelValue.lean ====
/-
  The idealized kernel's result array is the LSTM cell of LstmSpec.

  What the region finds: the stacked weight matrix holds gate g's weights in rows 1024·g … 1024·g + 1023 (rounding
  to bf16 is the identity here), the bias row holds gate g's bias in columns 1024·g …. What point t stages: rows
  256·t … 256·t + 255 of x, prev_h and prev_c, and the whole stacked matrix and bias row. So at (a, j) of its block the
  body's two stored planes are the new hidden and cell state of batch row 256·t + a, hidden unit j — which is what
  the result array's block (·, 256·t …, ·) of the cell reads there. The 64 blocks tile the array (row r lies in block
  r / 256), so the array ends holding the cell everywhere.
-/
import proofs.«114699_j51376398795261_2_alg».proof.Proof.KernelIdealFrame
import proofs.«114699_j51376398795261_2_alg».proof.Proof.KernelPayload
import Idealize.ShloMosaic.Lib.Pipeline.Value
import Idealize.ShloMosaic.Lib.StableHlo.Run
import Idealize.ShloMosaic.PureOps.Ideal.Laws

set_option maxRecDepth 16384

noncomputable section

namespace Cert.KernelIdeal.KValue

open Cert.KernelIdeal Cert.KernelIdeal.Gen Cert.KernelIdeal.Frame Cert.KernelIdeal.Payload Cert.LstmSpec
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## What the host operations leave -/

/-- The stacked weight matrix as the region finds it: the four gates' matrices one under another, rounded. -/
theorem V_weights (c : Dev nD) : (V m c main_v1 : S4096x2048.Idx → EReal) =
    truncf .bf16 (concatenate S4096x2048 0 [⟨S1024x2048, m ((c : Thread nD τ).loc main_arg3)⟩, ⟨S1024x2048, m ((c : Thread nD τ).loc main_arg5)⟩, ⟨S1024x2048, m ((c : Thread nD τ).loc main_arg7)⟩, ⟨S1024x2048, m ((c : Thread nD τ).loc main_arg9)⟩]
      concatenates_S1024x2048_S1024x2048_S1024x2048_S1024x2048_S4096x2048_d0 : FVec Ideal S4096x2048 .f32) bitsLt_bf16_f32 := by
  dsimp only [V, hostOps0]
  after_results
  rfl

/-- The bias row as the region finds it: the four gates' biases one after another, as one row. -/
theorem V_bias (c : Dev nD) : (V m c main_v3 : S1x4096.Idx → EReal) =
    shapeCast S1x4096 (concatenate S4096 0 [⟨S1024, m ((c : Thread nD τ).loc main_arg4)⟩, ⟨S1024, m ((c : Thread nD τ).loc main_arg6)⟩, ⟨S1024, m ((c : Thread nD τ).loc main_arg8)⟩, ⟨S1024, m ((c : Thread nD τ).loc main_arg10)⟩]
      concatenates_S1024_S1024_S1024_S1024_S4096_d0 : FVec Ideal S4096 .f32) shapeCasts_S4096_S1x4096 := by
  dsimp only [V, hostOps0]
  after_results
  rfl

/-! Row 1024·g + j of the stacked matrix is row j of gate g's weights; column 1024·g + j of the bias row is entry j of
    gate g's bias. -/

theorem weights_at_0 (c : Dev nD) (j : Fin 1024) (k : Fin 2048) :
    V m c main_v1 (ix2 (gateCol 0 j) k) = m ((c : Thread nD τ).loc main_arg3) (ix2 j k) := by
  rw [V_weights]
  exact concatenate_apply_piece (α := EReal) (t := S4096x2048) (0 : Fin 2) [⟨S1024x2048, m ((c : Thread nD τ).loc main_arg3)⟩, ⟨S1024x2048, m ((c : Thread nD τ).loc main_arg5)⟩, ⟨S1024x2048, m ((c : Thread nD τ).loc main_arg7)⟩, ⟨S1024x2048, m ((c : Thread nD τ).loc main_arg9)⟩]
    concatenates_S1024x2048_S1024x2048_S1024x2048_S1024x2048_S4096x2048_d0 (ix2 (gateCol 0 j) k) 0 (by show 0 < 4; omega) S1024x2048 (m ((c : Thread nD τ).loc main_arg3)) rfl rfl 0 rfl
    (ix2 j k) (fun b => match b with | ⟨0, _⟩ => fun hne => absurd rfl hne | ⟨1, _⟩ => fun _ => rfl)
    (by show 0 + j.val = 1024 * 0 + j.val; omega)
theorem bias_at_0 (c : Dev nD) (j : Fin 1024) :
    V m c main_v3 (ix2 (0 : Fin 1) (gateCol 0 j)) = m ((c : Thread nD τ).loc main_arg4) (ix1 j) := by
  rw [V_bias]
  refine (shapeCast_addUnit_apply ![4096] _ shapeCasts_S4096_S1x4096 (ix2 (0 : Fin 1) (gateCol 0 j))).trans ?_
  have e : (fun a : Fin 1 => (ix2 (0 : Fin 1) (gateCol 0 j)) a.succ) = ix1 (gateCol 0 j) := funext fun a => by match a with | ⟨0, _⟩ => rfl
  rw [e]
  exact concatenate_apply_piece (α := EReal) (t := S4096) (0 : Fin 1) [⟨S1024, m ((c : Thread nD τ).loc main_arg4)⟩, ⟨S1024, m ((c : Thread nD τ).loc main_arg6)⟩, ⟨S1024, m ((c : Thread nD τ).loc main_arg8)⟩, ⟨S1024, m ((c : Thread nD τ).loc main_arg10)⟩]
    concatenates_S1024_S1024_S1024_S1024_S4096_d0 (ix1 (gateCol 0 j)) 0 (by show 0 < 4; omega) S1024 (m ((c : Thread nD τ).loc main_arg4)) rfl rfl 0 rfl
    (ix1 j) (fun b => match b with | ⟨0, _⟩ => fun hne => absurd rfl hne)
    (by show 0 + j.val = 1024 * 0 + j.val; omega)

theorem weights_at_1 (c : Dev nD) (j : Fin 1024) (k : Fin 2048) :
    V m c main_v1 (ix2 (gateCol 1 j) k) = m ((c : Thread nD τ).loc main_arg5) (ix2 j k) := by
  rw [V_weights]
  exact concatenate_apply_piece (α := EReal) (t := S4096x2048) (0 : Fin 2) [⟨S1024x2048, m ((c : Thread nD τ).loc main_arg3)⟩, ⟨S1024x2048, m ((c : Thread nD τ).loc main_arg5)⟩, ⟨S1024x2048, m ((c : Thread nD τ).loc main_arg7)⟩, ⟨S1024x2048, m ((c : Thread nD τ).loc main_arg9)⟩]
    concatenates_S1024x2048_S1024x2048_S1024x2048_S1024x2048_S4096x2048_d0 (ix2 (gateCol 1 j) k) 1 (by show 1 < 4; omega) S1024x2048 (m ((c : Thread nD τ).loc main_arg5)) rfl rfl 1024 rfl
    (ix2 j k) (fun b => match b with | ⟨0, _⟩ => fun hne => absurd rfl hne | ⟨1, _⟩ => fun _ => rfl)
    (by show 1024 + j.val = 1024 * 1 + j.val; omega)
theorem bias_at_1 (c : Dev nD) (j : Fin 1024) :
    V m c main_v3 (ix2 (0 : Fin 1) (gateCol 1 j)) = m ((c : Thread nD τ).loc main_arg6) (ix1 j) := by
  rw [V_bias]
  refine (shapeCast_addUnit_apply ![4096] _ shapeCasts_S4096_S1x4096 (ix2 (0 : Fin 1) (gateCol 1 j))).trans ?_
  have e : (fun a : Fin 1 => (ix2 (0 : Fin 1) (gateCol 1 j)) a.succ) = ix1 (gateCol 1 j) := funext fun a => by match a with | ⟨0, _⟩ => rfl
  rw [e]
  exact concatenate_apply_piece (α := EReal) (t := S4096) (0 : Fin 1) [⟨S1024, m ((c : Thread nD τ).loc main_arg4)⟩, ⟨S1024, m ((c : Thread nD τ).loc main_arg6)⟩, ⟨S1024, m ((c : Thread nD τ).loc main_arg8)⟩, ⟨S1024, m ((c : Thread nD τ).loc main_arg10)⟩]
    concatenates_S1024_S1024_S1024_S1024_S4096_d0 (ix1 (gateCol 1 j)) 1 (by show 1 < 4; omega) S1024 (m ((c : Thread nD τ).loc main_arg6)) rfl rfl 1024 rfl
    (ix1 j) (fun b => match b with | ⟨0, _⟩ => fun hne => absurd rfl hne)
    (by show 1024 + j.val = 1024 * 1 + j.val; omega)

theorem weights_at_2 (c : Dev nD) (j : Fin 1024) (k : Fin 2048) :
    V m c main_v1 (ix2 (gateCol 2 j) k) = m ((c : Thread nD τ).loc main_arg7) (ix2 j k) := by
  rw [V_weights]
  exact concatenate_apply_piece (α := EReal) (t := S4096x2048) (0 : Fin 2) [⟨S1024x2048, m ((c : Thread nD τ).loc main_arg3)⟩, ⟨S1024x2048, m ((c : Thread nD τ).loc main_arg5)⟩, ⟨S1024x2048, m ((c : Thread nD τ).loc main_arg7)⟩, ⟨S1024x2048, m ((c : Thread nD τ).loc main_arg9)⟩]
    concatenates_S1024x2048_S1024x2048_S1024x2048_S1024x2048_S4096x2048_d0 (ix2 (gateCol 2 j) k) 2 (by show 2 < 4; omega) S1024x2048 (m ((c : Thread nD τ).loc main_arg7)) rfl rfl 2048 rfl
    (ix2 j k) (fun b => match b with | ⟨0, _⟩ => fun hne => absurd rfl hne | ⟨1, _⟩ => fun _ => rfl)
    (by show 2048 + j.val = 1024 * 2 + j.val; omega)
theorem bias_at_2 (c : Dev nD) (j : Fin 1024) :
    V m c main_v3 (ix2 (0 : Fin 1) (gateCol 2 j)) = m ((c : Thread nD τ).loc main_arg8) (ix1 j) := by
  rw [V_bias]
  refine (shapeCast_addUnit_apply ![4096] _ shapeCasts_S4096_S1x4096 (ix2 (0 : Fin 1) (gateCol 2 j))).trans ?_
  have e : (fun a : Fin 1 => (ix2 (0 : Fin 1) (gateCol 2 j)) a.succ) = ix1 (gateCol 2 j) := funext fun a => by match a with | ⟨0, _⟩ => rfl
  rw [e]
  exact concatenate_apply_piece (α := EReal) (t := S4096) (0 : Fin 1) [⟨S1024, m ((c : Thread nD τ).loc main_arg4)⟩, ⟨S1024, m ((c : Thread nD τ).loc main_arg6)⟩, ⟨S1024, m ((c : Thread nD τ).loc main_arg8)⟩, ⟨S1024, m ((c : Thread nD τ).loc main_arg10)⟩]
    concatenates_S1024_S1024_S1024_S1024_S4096_d0 (ix1 (gateCol 2 j)) 2 (by show 2 < 4; omega) S1024 (m ((c : Thread nD τ).loc main_arg8)) rfl rfl 2048 rfl
    (ix1 j) (fun b => match b with | ⟨0, _⟩ => fun hne => absurd rfl hne)
    (by show 2048 + j.val = 1024 * 2 + j.val; omega)

theorem weights_at_3 (c : Dev nD) (j : Fin 1024) (k : Fin 2048) :
    V m c main_v1 (ix2 (gateCol 3 j) k) = m ((c : Thread nD τ).loc main_arg9) (ix2 j k) := by
  rw [V_weights]
  exact concatenate_apply_piece (α := EReal) (t := S4096x2048) (0 : Fin 2) [⟨S1024x2048, m ((c : Thread nD τ).loc main_arg3)⟩, ⟨S1024x2048, m ((c : Thread nD τ).loc main_arg5)⟩, ⟨S1024x2048, m ((c : Thread nD τ).loc main_arg7)⟩, ⟨S1024x2048, m ((c : Thread nD τ).loc main_arg9)⟩]
    concatenates_S1024x2048_S1024x2048_S1024x2048_S1024x2048_S4096x2048_d0 (ix2 (gateCol 3 j) k) 3 (by show 3 < 4; omega) S1024x2048 (m ((c : Thread nD τ).loc main_arg9)) rfl rfl 3072 rfl
    (ix2 j k) (fun b => match b with | ⟨0, _⟩ => fun hne => absurd rfl hne | ⟨1, _⟩ => fun _ => rfl)
    (by show 3072 + j.val = 1024 * 3 + j.val; omega)
theorem bias_at_3 (c : Dev nD) (j : Fin 1024) :
    V m c main_v3 (ix2 (0 : Fin 1) (gateCol 3 j)) = m ((c : Thread nD τ).loc main_arg10) (ix1 j) := by
  rw [V_bias]
  refine (shapeCast_addUnit_apply ![4096] _ shapeCasts_S4096_S1x4096 (ix2 (0 : Fin 1) (gateCol 3 j))).trans ?_
  have e : (fun a : Fin 1 => (ix2 (0 : Fin 1) (gateCol 3 j)) a.succ) = ix1 (gateCol 3 j) := funext fun a => by match a with | ⟨0, _⟩ => rfl
  rw [e]
  exact concatenate_apply_piece (α := EReal) (t := S4096) (0 : Fin 1) [⟨S1024, m ((c : Thread nD τ).loc main_arg4)⟩, ⟨S1024, m ((c : Thread nD τ).loc main_arg6)⟩, ⟨S1024, m ((c : Thread nD τ).loc main_arg8)⟩, ⟨S1024, m ((c : Thread nD τ).loc main_arg10)⟩]
    concatenates_S1024_S1024_S1024_S1024_S4096_d0 (ix1 (gateCol 3 j)) 3 (by show 3 < 4; omega) S1024 (m ((c : Thread nD τ).loc main_arg10)) rfl rfl 3072 rfl
    (ix1 j) (fun b => match b with | ⟨0, _⟩ => fun hne => absurd rfl hne)
    (by show 3072 + j.val = 1024 * 3 + j.val; omega)

/-! ## The blocks at a point -/

/-- The printed index maps over the grid: the three row windows and the output move with the point, the stacked
    weights and the bias row stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = 0 ∧ win0_5.index t (1 : Fin 3) = t.val ∧ win0_5.index t (2 : Fin 3) = 0 :=
  (by decide +kernel : ∀ t : Fin grid0.N, _)

/-- The batch row that row a of point t's blocks is. -/
abbrev rowOf (t : Fin cfg0.N) (a : Fin 256) : Fin 16384 :=
  ⟨256 * t.val + a.val, by have h : t.val < 64 := lt_of_lt_of_eq t.isLt N_0; have := a.isLt; omega⟩

theorem rows_blk_0 (c : Dev nD) (t : Fin cfg0.N) (a : Fin 256) (k : Fin 1024) :
    View.ld (iblk m c 0 t) rRows (ix2 a k) = m ((c : Thread nD τ).loc main_arg0) (ix2 (rowOf t a) k) := by
  rw [← V_main_arg0 m c]
  show V m c main_arg0 (((cfg0.win 0).blk t).view.emb (rRows.idx (ix2 a k))) = V m c main_arg0 (ix2 (rowOf t a) k)
  refine congrArg _ (funext fun b => Fin.ext ?_)
  obtain ⟨e00, e01, e10, e11, e20, e21, e30, e31, e40, e41, e50, e51, e52⟩ := idx_facts t
  match b with
  | ⟨0, _⟩ => show win0_0.index t (0 : Fin 2) * 256 + 1 * (0 + 1 * a.val) = 256 * t.val + a.val; omega
  | ⟨1, _⟩ => show win0_0.index t (1 : Fin 2) * 1024 + 1 * (0 + 1 * k.val) = k.val; omega

theorem rows_blk_1 (c : Dev nD) (t : Fin cfg0.N) (a : Fin 256) (k : Fin 1024) :
    View.ld (iblk m c 1 t) rRows (ix2 a k) = m ((c : Thread nD τ).loc main_arg1) (ix2 (rowOf t a) k) := by
  rw [← V_main_arg1 m c]
  show V m c main_arg1 (((cfg0.win 1).blk t).view.emb (rRows.idx (ix2 a k))) = V m c main_arg1 (ix2 (rowOf t a) k)
  refine congrArg _ (funext fun b => Fin.ext ?_)
  obtain ⟨e00, e01, e10, e11, e20, e21, e30, e31, e40, e41, e50, e51, e52⟩ := idx_facts t
  match b with
  | ⟨0, _⟩ => show win0_1.index t (0 : Fin 2) * 256 + 1 * (0 + 1 * a.val) = 256 * t.val + a.val; omega
  | ⟨1, _⟩ => show win0_1.index t (1 : Fin 2) * 1024 + 1 * (0 + 1 * k.val) = k.val; omega

theorem rows_blk_2 (c : Dev nD) (t : Fin cfg0.N) (a : Fin 256) (k : Fin 1024) :
    View.ld (iblk m c 2 t) rRows (ix2 a k) = m ((c : Thread nD τ).loc main_arg2) (ix2 (rowOf t a) k) := by
  rw [← V_main_arg2 m c]
  show V m c main_arg2 (((cfg0.win 2).blk t).view.emb (rRows.idx (ix2 a k))) = V m c main_arg2 (ix2 (rowOf t a) k)
  refine congrArg _ (funext fun b => Fin.ext ?_)
  obtain ⟨e00, e01, e10, e11, e20, e21, e30, e31, e40, e41, e50, e51, e52⟩ := idx_facts t
  match b with
  | ⟨0, _⟩ => show win0_2.index t (0 : Fin 2) * 256 + 1 * (0 + 1 * a.val) = 256 * t.val + a.val; omega
  | ⟨1, _⟩ => show win0_2.index t (1 : Fin 2) * 1024 + 1 * (0 + 1 * k.val) = k.val; omega

/-- The left half of the staged weight block at (n, k) is the stacked matrix at (n, k). -/
theorem wx_blk (c : Dev nD) (t : Fin cfg0.N) (n : Fin 4096) (k : Fin 1024) :
    View.ld (iblk m c 3 t) rWx (ix2 n k) = V m c main_v1 (ix2 n (colX k)) := by
  show V m c main_v1 (((cfg0.win 3).blk t).view.emb (rWx.idx (ix2 n k))) = V m c main_v1 (ix2 n (colX k))
  refine congrArg _ (funext fun b => Fin.ext ?_)
  obtain ⟨e00, e01, e10, e11, e20, e21, e30, e31, e40, e41, e50, e51, e52⟩ := idx_facts t
  match b with
  | ⟨0, _⟩ => show win0_3.index t (0 : Fin 2) * 4096 + 1 * (0 + 1 * n.val) = n.val; omega
  | ⟨1, _⟩ => show win0_3.index t (1 : Fin 2) * 2048 + 1 * (0 + 1 * k.val) = k.val; omega

/-- The right half at (n, k) is the stacked matrix at (n, 1024 + k). -/
theorem wh_blk (c : Dev nD) (t : Fin cfg0.N) (n : Fin 4096) (k : Fin 1024) :
    View.ld (iblk m c 3 t) rWh (ix2 n k) = V m c main_v1 (ix2 n (colH k)) := by
  show V m c main_v1 (((cfg0.win 3).blk t).view.emb (rWh.idx (ix2 n k))) = V m c main_v1 (ix2 n (colH k))
  refine congrArg _ (funext fun b => Fin.ext ?_)
  obtain ⟨e00, e01, e10, e11, e20, e21, e30, e31, e40, e41, e50, e51, e52⟩ := idx_facts t
  match b with
  | ⟨0, _⟩ => show win0_3.index t (0 : Fin 2) * 4096 + 1 * (0 + 1 * n.val) = n.val; omega
  | ⟨1, _⟩ => show win0_3.index t (1 : Fin 2) * 2048 + 1 * (1024 + 1 * k.val) = 1024 + k.val; omega

/-- The staged bias block at (0, n) is the bias row at (0, n). -/
theorem bias_blk (c : Dev nD) (t : Fin cfg0.N) (n : Fin 4096) :
    View.ld (iblk m c 4 t) rBias (ix2 (0 : Fin 1) n) = V m c main_v3 (ix2 (0 : Fin 1) n) := by
  show V m c main_v3 (((cfg0.win 4).blk t).view.emb (rBias.idx (ix2 (0 : Fin 1) n))) = V m c main_v3 (ix2 (0 : Fin 1) n)
  refine congrArg _ (funext fun b => Fin.ext ?_)
  obtain ⟨e00, e01, e10, e11, e20, e21, e30, e31, e40, e41, e50, e51, e52⟩ := idx_facts t
  match b with
  | ⟨0, _⟩ => show win0_4.index t (0 : Fin 2) * 1 + 1 * (0 + 1 * 0) = 0; omega
  | ⟨1, _⟩ => show win0_4.index t (1 : Fin 2) * 4096 + 1 * (0 + 1 * n.val) = n.val; omega

/-! ## What a point writes back -/

/-- The cell of the argument arrays as launched. -/
abbrev GM (c : Dev nD) : SOut.Idx → EReal := G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- Where (p, a, j) of point t's output block sits in the result array. -/
theorem out_emb (t : Fin cfg0.N) (p : Fin 2) (a : Fin 256) (j : Fin 1024) :
    ((cfg0.win 5).blk t).view.emb (ix3 p a j) = ix3 p (rowOf t a) j := by
  refine funext fun b => Fin.ext ?_
  obtain ⟨e00, e01, e10, e11, e20, e21, e30, e31, e40, e41, e50, e51, e52⟩ := idx_facts t
  match b with
  | ⟨0, _⟩ => show win0_5.index t (0 : Fin 3) * 2 + 1 * p.val = p.val; omega
  | ⟨1, _⟩ => show win0_5.index t (1 : Fin 3) * 256 + 1 * a.val = 256 * t.val + a.val; omega
  | ⟨2, _⟩ => show win0_5.index t (2 : Fin 3) * 1024 + 1 * j.val = j.val; omega

/-- The cell-state plane of point t's block is the cell's plane 1 there. -/
theorem plane1_eq (c : Dev nD) (t : Fin cfg0.N) (x : S1x256x1024.Idx) :
    payC (iblk m c 0 t) (iblk m c 1 t) (iblk m c 2 t) (iblk m c 3 t) (iblk m c 4 t) x = GM m c (((cfg0.win 5).blk t).view.emb (rPlane1.emb x)) := by
  obtain ⟨a, j, rfl⟩ : ∃ (a : Fin 256) (j : Fin 1024), x = ix3 (0 : Fin 1) a j :=
    ⟨x 1, x 2, (eq_ix3 x).trans (congrArg (fun z : Fin 1 => ix3 z (x 1) (x 2)) (Fin.ext (Nat.lt_one_iff.mp (x 0).isLt) : x 0 = (0 : Fin 1)))⟩
  have e : rPlane1.emb (ix3 (0 : Fin 1) a j) = ix3 (1 : Fin 2) a j := funext fun b => Fin.ext (by
    match b with
    | ⟨0, _⟩ => show 1 + 1 * 0 = 1; rfl
    | ⟨1, _⟩ => show 0 + 1 * a.val = a.val; omega
    | ⟨2, _⟩ => show 0 + 1 * j.val = j.val; omega)
  rw [e, out_emb]
  show k0_pay4 (View.ld (iblk m c 0 t) rRows) (View.ld (iblk m c 1 t) rRows) (View.ld (iblk m c 2 t) rRows) (View.ld (iblk m c 3 t) rWx) (View.ld (iblk m c 3 t) rWh) (View.ld (iblk m c 4 t) rBias) (ix3 (0 : Fin 1) a j) = _
  rw [planeC_block (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) _ _ _ _ _ _ a (rowOf t a) j
      (rows_blk_0 m c t a) (rows_blk_1 m c t a) (rows_blk_2 m c t a j)
      (fun k => (wx_blk m c t (gateCol 0 j) k).trans (weights_at_0 m c j (colX k))) (fun k => (wh_blk m c t (gateCol 0 j) k).trans (weights_at_0 m c j (colH k))) ((bias_blk m c t (gateCol 0 j)).trans (bias_at_0 m c j))
      (fun k => (wx_blk m c t (gateCol 1 j) k).trans (weights_at_1 m c j (colX k))) (fun k => (wh_blk m c t (gateCol 1 j) k).trans (weights_at_1 m c j (colH k))) ((bias_blk m c t (gateCol 1 j)).trans (bias_at_1 m c j))
      (fun k => (wx_blk m c t (gateCol 3 j) k).trans (weights_at_3 m c j (colX k))) (fun k => (wh_blk m c t (gateCol 3 j) k).trans (weights_at_3 m c j (colH k))) ((bias_blk m c t (gateCol 3 j)).trans (bias_at_3 m c j))]
  rfl

/-- The hidden-state plane of point t's block is the cell's plane 0 there. -/
theorem plane0_eq (c : Dev nD) (t : Fin cfg0.N) (x : S1x256x1024.Idx) :
    payH (iblk m c 0 t) (iblk m c 1 t) (iblk m c 2 t) (iblk m c 3 t) (iblk m c 4 t) x = GM m c (((cfg0.win 5).blk t).view.emb (rPlane0.emb x)) := by
  obtain ⟨a, j, rfl⟩ : ∃ (a : Fin 256) (j : Fin 1024), x = ix3 (0 : Fin 1) a j :=
    ⟨x 1, x 2, (eq_ix3 x).trans (congrArg (fun z : Fin 1 => ix3 z (x 1) (x 2)) (Fin.ext (Nat.lt_one_iff.mp (x 0).isLt) : x 0 = (0 : Fin 1)))⟩
  have e : rPlane0.emb (ix3 (0 : Fin 1) a j) = ix3 (0 : Fin 2) a j := funext fun b => Fin.ext (by
    match b with
    | ⟨0, _⟩ => show 0 + 1 * 0 = 0; rfl
    | ⟨1, _⟩ => show 0 + 1 * a.val = a.val; omega
    | ⟨2, _⟩ => show 0 + 1 * j.val = j.val; omega)
  rw [e, out_emb]
  show k0_pay3 (View.ld (iblk m c 0 t) rRows) (View.ld (iblk m c 1 t) rRows) (View.ld (iblk m c 2 t) rRows) (View.ld (iblk m c 3 t) rWx) (View.ld (iblk m c 3 t) rWh) (View.ld (iblk m c 4 t) rBias) (ix3 (0 : Fin 1) a j) = _
  rw [planeH_block (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) _ _ _ _ _ _ a (rowOf t a) j
      (rows_blk_0 m c t a) (rows_blk_1 m c t a) (rows_blk_2 m c t a j)
      (fun k => (wx_blk m c t (gateCol 0 j) k).trans (weights_at_0 m c j (colX k))) (fun k => (wh_blk m c t (gateCol 0 j) k).trans (weights_at_0 m c j (colH k))) ((bias_blk m c t (gateCol 0 j)).trans (bias_at_0 m c j))
      (fun k => (wx_blk m c t (gateCol 1 j) k).trans (weights_at_1 m c j (colX k))) (fun k => (wh_blk m c t (gateCol 1 j) k).trans (weights_at_1 m c j (colH k))) ((bias_blk m c t (gateCol 1 j)).trans (bias_at_1 m c j))
      (fun k => (wx_blk m c t (gateCol 2 j) k).trans (weights_at_2 m c j (colX k))) (fun k => (wh_blk m c t (gateCol 2 j) k).trans (weights_at_2 m c j (colH k))) ((bias_blk m c t (gateCol 2 j)).trans (bias_at_2 m c j))
      (fun k => (wx_blk m c t (gateCol 3 j) k).trans (weights_at_3 m c j (colX k))) (fun k => (wh_blk m c t (gateCol 3 j) k).trans (weights_at_3 m c j (colH k))) ((bias_blk m c t (gateCol 3 j)).trans (bias_at_3 m c j))]
  rfl

/-- What point t writes back is block t of the cell. -/
theorem flushed_eq (c : Dev nD) (t : Fin cfg0.N) :
    (dats m 0 c).flushed 5 t = ((cfg0.win 5).blk t).view.read (Elt Ideal) (GM m c) := by
  show (cfg0.win 5).cut (grid0.coords t) ((dats m 0 c).after 5 t) = _
  rw [after5]
  unfold out5
  funext y
  show View.canon ([⟨rPlane1, payC (iblk m c 0 t) (iblk m c 1 t) (iblk m c 2 t) (iblk m c 3 t) (iblk m c 4 t)⟩, ⟨rPlane0, payH (iblk m c 0 t) (iblk m c 1 t) (iblk m c 2 t) (iblk m c 3 t) (iblk m c 4 t)⟩] : List (View.Piece (Elt Ideal) S2x256x1024 .f32)) y
      = GM m c (((cfg0.win 5).blk t).view.emb y)
  refine View.canon_apply_of_pieces (Val := Elt Ideal) (fun y => GM m c (((cfg0.win 5).blk t).view.emb y)) _ ?_ y (cover5 _ _ y)
  intro pc hpc x
  simp only [List.mem_cons, List.mem_singleton, List.not_mem_nil, or_false] at hpc
  rcases hpc with rfl | rfl
  · exact plane1_eq m c t x
  · exact plane0_eq m c t x

/-! ## The cover, and the array after the run -/

theorem mem_blk (t : Fin cfg0.N) (i : S2x16384x1024.Idx) :
    i ∈ ((cfg0.win 5).blk t).view.set ↔ ∀ a : Fin 3, win0_5.index t a * S2x256x1024.size a ≤ (i a).val ∧ (i a).val < win0_5.index t a * S2x256x1024.size a + S2x256x1024.size a := by
  show i ∈ ((View.whole main_v4).slice (win0_5.rect t)).set ↔ _
  rw [View.set_slice_whole, Rect.mem_set_unit]
  exact Iff.rfl

/-- Every index of the result array lies in the block of the point its batch row names. -/
theorem cover (i : S2x16384x1024.Idx) : ∃ t : Fin cfg0.N, (cfg0.win 5).flush t = true ∧ i ∈ ((cfg0.win 5).blk t).view.set := by
  have h0 : (i 0).val < 2 := (i 0).isLt
  have h1 : (i 1).val < 16384 := (i 1).isLt
  have h2 : (i 2).val < 1024 := (i 2).isLt
  let t : Fin cfg0.N := ⟨(i 1).val / 256, lt_of_lt_of_eq (by omega : (i 1).val / 256 < 64) N_0.symm⟩
  obtain ⟨e00, e01, e10, e11, e20, e21, e30, e31, e40, e41, e50, e51, e52⟩ := idx_facts t
  have ht : t.val = (i 1).val / 256 := rfl
  refine ⟨t, flush0_5 t, ?_⟩
  rw [mem_blk]
  intro a
  match a with
  | ⟨0, _⟩ => show win0_5.index t (0 : Fin 3) * 2 ≤ (i 0).val ∧ (i 0).val < win0_5.index t (0 : Fin 3) * 2 + 2; omega
  | ⟨1, _⟩ => show win0_5.index t (1 : Fin 3) * 256 ≤ (i 1).val ∧ (i 1).val < win0_5.index t (1 : Fin 3) * 256 + 256; omega
  | ⟨2, _⟩ => show win0_5.index t (2 : Fin 3) * 1024 ≤ (i 2).val ∧ (i 2).val < win0_5.index t (2 : Fin 3) * 1024 + 1024; omega

/-- The result array after the run is the cell. -/
theorem final (c : Dev nD) : (dats m 0 c).arrAt 5 cfg0.N = GM m c :=
  (dats m 0 c).arrAt_eq_of_cover 5 (GM m c) (fun t _ => flushed_eq m c t) cover

/-- The run of the idealized kernel: the result array ends at the cell of the arguments, the arguments unchanged. -/
theorem run : θ_run defs (onTc (τ := τ) (main (F := Ideal))) ⟨m, fun _ => 0, ρ⟩ fun r => ∀ c : Dev nD,
      r.2.mem ((c.tc : Thread nD τ).loc main_v4) = GM m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h c).1 5).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩)
    (run_main m ρ)

end Cert.KernelIdeal.KValue

end
-- ==== Proof.RefStages.lean ====
/-
  The reference program's result, stage by stage, is the LSTM cell of LstmSpec.

  The reference concatenates x and prev_h into rows of 2048, multiplies by each gate's transposed weights (one sum
  over 2048 columns), adds the bias, applies 1/(1 + exp(−·)) to three gates and tanh to the fourth, combines, and
  stacks [h', c']. Read at an index: the concatenated row is x on columns < 1024 and prev_h after; the sum over 2048
  columns splits at 1024 into the input part and the recurrent part; 1/(1 + exp(−s)) is the logistic function by
  definition on the extended reals; the stacked result reads plane 0 from h' and plane 1 from c'.
-/
import proofs.«114699_j51376398795261_2_alg».proof.Proof.Gen.ReferenceIdeal.Read
import proofs.«114699_j51376398795261_2_alg».proof.Proof.LstmSpec
import Idealize.ShloMosaic.Lib.ValueIdx
import Idealize.ShloMosaic.Lib.Pipeline.Value
import Idealize.ShloMosaic.PureOps.Ideal.Laws
import Idealize.ShloMosaic.PureOps.IdealRules

noncomputable section

namespace Cert.ReferenceIdeal.RefStages

open Cert.ReferenceIdeal Cert.ReferenceIdeal.Gen Cert.ReferenceIdeal.Read Idealize.ShloMosaic Idealize.ShloMosaic.ValueIdx Cert.LstmSpec

/-- The float pattern of 1.0 denotes 1. -/
theorem one_f32 : Ideal.ofBits .f32 0x3F800000#32 = 1 := IdealRules.sign_bit.ideal_onePat .f32

/-- The reference's spelling of the sigmoid, 1 / (1 + exp(−s)) in host operations, is the logistic function. -/
theorem sigmoid_eq (s : Ideal .f32) :
    FloatOps.hostDivf (FloatOps.ofBits .f32 0x3F800000#32 : Ideal .f32) (FloatOps.addf (FloatOps.ofBits .f32 0x3F800000#32) (FloatOps.hostUnary .exp (FloatOps.hostNegf s)))
      = Ideal.logistic s := by
  show Ideal.div (Ideal.ofBits .f32 0x3F800000#32) (Ideal.ofBits .f32 0x3F800000#32 + Ideal.exp (-s)) = _
  rw [one_f32]; rfl

/-- The concatenated row at a column of the first half is x there. -/
theorem row_left (x h : FVec Ideal S16384x1024 .f32) (r : Fin 16384) (k : Fin 1024) :
    val_main_v0 (F := Ideal) x h (ix2 r (colX k)) = x (ix2 r k) := by
  unfold val_main_v0
  exact concatenate_pair_apply_left (1 : Fin 2) x h concatenates_S16384x1024_S16384x1024_S16384x2048_d1 (ix2 r (colX k)) rfl (ix2 r k)
    (fun b => match b with | ⟨0, _⟩ => rfl | ⟨1, _⟩ => rfl)

/-- The concatenated row at a column of the second half is prev_h, 1024 columns back. -/
theorem row_right (x h : FVec Ideal S16384x1024 .f32) (r : Fin 16384) (k : Fin 1024) :
    val_main_v0 (F := Ideal) x h (ix2 r (colH k)) = h (ix2 r k) := by
  unfold val_main_v0
  exact concatenate_pair_apply_right (1 : Fin 2) x h concatenates_S16384x1024_S16384x1024_S16384x2048_d1 (ix2 r (colH k)) rfl rfl (ix2 r k)
    (fun b => match b with | ⟨0, _⟩ => fun _ => rfl | ⟨1, _⟩ => fun hne => absurd rfl hne)
    (by show k.val + 1024 = 1024 + k.val; omega)

/-- Gate i's pre-activation stage at (r, j): the product of the concatenated row [x(r,·), h(r,·)] with row j of the
    gate's weights, split at column 1024, plus the bias. -/
theorem pre_i (x h : FVec Ideal S16384x1024 .f32) (W : FVec Ideal S1024x2048 .f32) (b : FVec Ideal S1024 .f32) (r : Fin 16384) (j : Fin 1024) :
    val_main_v5 (F := Ideal) x h W b (ix2 r j) = pre x h W b r j := by
  rw [val_main_v5_apply, val_main_v2_apply, val_main_v4_apply, val_main_v3_apply, sum_split]
  unfold pre
  simp only [Ideal.addf_def]
  congr 1
  · congr 1
    · refine Finset.sum_congr rfl fun k _ => ?_
      rw [val_main_v1_apply]
      have e1 : lidx_main_v2 (ix2 r j) (colX k) = ix2 r (colX k) := funext fun a => Fin.ext (by match a with | ⟨0, _⟩ => rfl | ⟨1, _⟩ => rfl)
      have e2 : idx_main_v1 (ridx_main_v2 (ix2 r j) (colX k)) = ix2 j (colX k) := funext fun a => Fin.ext (by match a with | ⟨0, _⟩ => rfl | ⟨1, _⟩ => rfl)
      rw [e1, e2, row_left]
    · refine Finset.sum_congr rfl fun k _ => ?_
      rw [val_main_v1_apply]
      have e1 : lidx_main_v2 (ix2 r j) (colH k) = ix2 r (colH k) := funext fun a => Fin.ext (by match a with | ⟨0, _⟩ => rfl | ⟨1, _⟩ => rfl)
      have e2 : idx_main_v1 (ridx_main_v2 (ix2 r j) (colH k)) = ix2 j (colH k) := funext fun a => Fin.ext (by match a with | ⟨0, _⟩ => rfl | ⟨1, _⟩ => rfl)
      rw [e1, e2, row_right]
  · exact congrArg b (funext fun a => Fin.ext (by match a with | ⟨0, _⟩ => rfl))

/-- Gate f's pre-activation stage at (r, j): the product of the concatenated row [x(r,·), h(r,·)] with row j of the
    gate's weights, split at column 1024, plus the bias. -/
theorem pre_f (x h : FVec Ideal S16384x1024 .f32) (W : FVec Ideal S1024x2048 .f32) (b : FVec Ideal S1024 .f32) (r : Fin 16384) (j : Fin 1024) :
    val_main_v16 (F := Ideal) x h W b (ix2 r j) = pre x h W b r j := by
  rw [val_main_v16_apply, val_main_v13_apply, val_main_v15_apply, val_main_v14_apply, sum_split]
  unfold pre
  simp only [Ideal.addf_def]
  congr 1
  · congr 1
    · refine Finset.sum_congr rfl fun k _ => ?_
      rw [val_main_v12_apply]
      have e1 : lidx_main_v13 (ix2 r j) (colX k) = ix2 r (colX k) := funext fun a => Fin.ext (by match a with | ⟨0, _⟩ => rfl | ⟨1, _⟩ => rfl)
      have e2 : idx_main_v12 (ridx_main_v13 (ix2 r j) (colX k)) = ix2 j (colX k) := funext fun a => Fin.ext (by match a with | ⟨0, _⟩ => rfl | ⟨1, _⟩ => rfl)
      rw [e1, e2, row_left]
    · refine Finset.sum_congr rfl fun k _ => ?_
      rw [val_main_v12_apply]
      have e1 : lidx_main_v13 (ix2 r j) (colH k) = ix2 r (colH k) := funext fun a => Fin.ext (by match a with | ⟨0, _⟩ => rfl | ⟨1, _⟩ => rfl)
      have e2 : idx_main_v12 (ridx_main_v13 (ix2 r j) (colH k)) = ix2 j (colH k) := funext fun a => Fin.ext (by match a with | ⟨0, _⟩ => rfl | ⟨1, _⟩ => rfl)
      rw [e1, e2, row_right]
  · exact congrArg b (funext fun a => Fin.ext (by match a with | ⟨0, _⟩ => rfl))

/-- Gate o's pre-activation stage at (r, j): the product of the concatenated row [x(r,·), h(r,·)] with row j of the
    gate's weights, split at column 1024, plus the bias. -/
theorem pre_o (x h : FVec Ideal S16384x1024 .f32) (W : FVec Ideal S1024x2048 .f32) (b : FVec Ideal S1024 .f32) (r : Fin 16384) (j : Fin 1024) :
    val_main_v27 (F := Ideal) x h W b (ix2 r j) = pre x h W b r j := by
  rw [val_main_v27_apply, val_main_v24_apply, val_main_v26_apply, val_main_v25_apply, sum_split]
  unfold pre
  simp only [Ideal.addf_def]
  congr 1
  · congr 1
    · refine Finset.sum_congr rfl fun k _ => ?_
      rw [val_main_v23_apply]
      have e1 : lidx_main_v24 (ix2 r j) (colX k) = ix2 r (colX k) := funext fun a => Fin.ext (by match a with | ⟨0, _⟩ => rfl | ⟨1, _⟩ => rfl)
      have e2 : idx_main_v23 (ridx_main_v24 (ix2 r j) (colX k)) = ix2 j (colX k) := funext fun a => Fin.ext (by match a with | ⟨0, _⟩ => rfl | ⟨1, _⟩ => rfl)
      rw [e1, e2, row_left]
    · refine Finset.sum_congr rfl fun k _ => ?_
      rw [val_main_v23_apply]
      have e1 : lidx_main_v24 (ix2 r j) (colH k) = ix2 r (colH k) := funext fun a => Fin.ext (by match a with | ⟨0, _⟩ => rfl | ⟨1, _⟩ => rfl)
      have e2 : idx_main_v23 (ridx_main_v24 (ix2 r j) (colH k)) = ix2 j (colH k) := funext fun a => Fin.ext (by match a with | ⟨0, _⟩ => rfl | ⟨1, _⟩ => rfl)
      rw [e1, e2, row_right]
  · exact congrArg b (funext fun a => Fin.ext (by match a with | ⟨0, _⟩ => rfl))

/-- Gate z's pre-activation stage at (r, j): the product of the concatenated row [x(r,·), h(r,·)] with row j of the
    gate's weights, split at column 1024, plus the bias. -/
theorem pre_z (x h : FVec Ideal S16384x1024 .f32) (W : FVec Ideal S1024x2048 .f32) (b : FVec Ideal S1024 .f32) (r : Fin 16384) (j : Fin 1024) :
    val_main_v38 (F := Ideal) x h W b (ix2 r j) = pre x h W b r j := by
  rw [val_main_v38_apply, val_main_v35_apply, val_main_v37_apply, val_main_v36_apply, sum_split]
  unfold pre
  simp only [Ideal.addf_def]
  congr 1
  · congr 1
    · refine Finset.sum_congr rfl fun k _ => ?_
      rw [val_main_v34_apply]
      have e1 : lidx_main_v35 (ix2 r j) (colX k) = ix2 r (colX k) := funext fun a => Fin.ext (by match a with | ⟨0, _⟩ => rfl | ⟨1, _⟩ => rfl)
      have e2 : idx_main_v34 (ridx_main_v35 (ix2 r j) (colX k)) = ix2 j (colX k) := funext fun a => Fin.ext (by match a with | ⟨0, _⟩ => rfl | ⟨1, _⟩ => rfl)
      rw [e1, e2, row_left]
    · refine Finset.sum_congr rfl fun k _ => ?_
      rw [val_main_v34_apply]
      have e1 : lidx_main_v35 (ix2 r j) (colH k) = ix2 r (colH k) := funext fun a => Fin.ext (by match a with | ⟨0, _⟩ => rfl | ⟨1, _⟩ => rfl)
      have e2 : idx_main_v34 (ridx_main_v35 (ix2 r j) (colH k)) = ix2 j (colH k) := funext fun a => Fin.ext (by match a with | ⟨0, _⟩ => rfl | ⟨1, _⟩ => rfl)
      rw [e1, e2, row_right]
  · exact congrArg b (funext fun a => Fin.ext (by match a with | ⟨0, _⟩ => rfl))

/-- Gate i's activation stage at (r, j): 1 / (1 + exp(−pre)), the logistic function of the pre-activation. -/
theorem act_i (x h : FVec Ideal S16384x1024 .f32) (W : FVec Ideal S1024x2048 .f32) (b : FVec Ideal S1024 .f32) (r : Fin 16384) (j : Fin 1024) :
    val_main_v11 (F := Ideal) x h W b (ix2 r j) = Ideal.logistic (pre x h W b r j) := by
  rw [val_main_v11_apply, val_main_v10_apply, val_main_cst_0_apply, val_main_v9_apply, val_main_v8_apply, val_main_cst_apply,
    val_main_v7_apply, val_main_v6_apply, pre_i]
  exact sigmoid_eq _

/-- Gate f's activation stage at (r, j): 1 / (1 + exp(−pre)), the logistic function of the pre-activation. -/
theorem act_f (x h : FVec Ideal S16384x1024 .f32) (W : FVec Ideal S1024x2048 .f32) (b : FVec Ideal S1024 .f32) (r : Fin 16384) (j : Fin 1024) :
    val_main_v22 (F := Ideal) x h W b (ix2 r j) = Ideal.logistic (pre x h W b r j) := by
  rw [val_main_v22_apply, val_main_v21_apply, val_main_cst_2_apply, val_main_v20_apply, val_main_v19_apply, val_main_cst_1_apply,
    val_main_v18_apply, val_main_v17_apply, pre_f]
  exact sigmoid_eq _

/-- Gate o's activation stage at (r, j): 1 / (1 + exp(−pre)), the logistic function of the pre-activation. -/
theorem act_o (x h : FVec Ideal S16384x1024 .f32) (W : FVec Ideal S1024x2048 .f32) (b : FVec Ideal S1024 .f32) (r : Fin 16384) (j : Fin 1024) :
    val_main_v33 (F := Ideal) x h W b (ix2 r j) = Ideal.logistic (pre x h W b r j) := by
  rw [val_main_v33_apply, val_main_v32_apply, val_main_cst_4_apply, val_main_v31_apply, val_main_v30_apply, val_main_cst_3_apply,
    val_main_v29_apply, val_main_v28_apply, pre_o]
  exact sigmoid_eq _

/-- The reference's new cell state (its stage 42) at (r, j). -/
theorem cell_eq (x h c : FVec Ideal S16384x1024 .f32) (Wi : FVec Ideal S1024x2048 .f32) (bi : FVec Ideal S1024 .f32) (Wf : FVec Ideal S1024x2048 .f32) (bf : FVec Ideal S1024 .f32)
    (Wz : FVec Ideal S1024x2048 .f32) (bz : FVec Ideal S1024 .f32) (r : Fin 16384) (j : Fin 1024) :
    val_main_v42 (F := Ideal) x h c Wi bi Wf bf Wz bz (ix2 r j) = cellNew x h c Wi bi Wf bf Wz bz r j := by
  rw [val_main_v42_apply, val_main_v40_apply, val_main_v41_apply, val_main_v39_apply, act_i, act_f, pre_z]
  rfl

/-- The reference's new hidden state (its stage 44) at (r, j). -/
theorem hidden_eq (x h c : FVec Ideal S16384x1024 .f32) (Wi : FVec Ideal S1024x2048 .f32) (bi : FVec Ideal S1024 .f32) (Wf : FVec Ideal S1024x2048 .f32) (bf : FVec Ideal S1024 .f32)
    (Wo : FVec Ideal S1024x2048 .f32) (bo : FVec Ideal S1024 .f32) (Wz : FVec Ideal S1024x2048 .f32) (bz : FVec Ideal S1024 .f32) (r : Fin 16384) (j : Fin 1024) :
    val_main_v44 (F := Ideal) x h c Wi bi Wf bf Wo bo Wz bz (ix2 r j) = hiddenNew x h c Wi bi Wf bf Wo bo Wz bz r j := by
  rw [val_main_v44_apply, val_main_v43_apply, act_o, cell_eq]
  rfl

/-- The reference's result is the LSTM cell: plane 0 the new hidden state, plane 1 the new cell state. -/
theorem result_eq (x h c : FVec Ideal S16384x1024 .f32) (Wi : FVec Ideal S1024x2048 .f32) (bi : FVec Ideal S1024 .f32) (Wf : FVec Ideal S1024x2048 .f32) (bf : FVec Ideal S1024 .f32)
    (Wo : FVec Ideal S1024x2048 .f32) (bo : FVec Ideal S1024 .f32) (Wz : FVec Ideal S1024x2048 .f32) (bz : FVec Ideal S1024 .f32) :
    val_main_v47 (F := Ideal) x h c Wi bi Wf bf Wo bo Wz bz = G x h c Wi bi Wf bf Wo bo Wz bz := by
  funext i
  obtain ⟨p, r, j, rfl⟩ : ∃ (p : Fin 2) (r : Fin 16384) (j : Fin 1024), i = ix3 p r j := ⟨i 0, i 1, i 2, eq_ix3 i⟩
  unfold val_main_v47 G
  by_cases hp : p.val = 0
  · rw [if_pos hp]
    refine (concatenate_pair_apply_left (t := S2x16384x1024) (s₁ := S1x16384x1024) (s₂ := S1x16384x1024) (0 : Fin 3) (val_main_v45 (F := Ideal) x h c Wi bi Wf bf Wo bo Wz bz) (val_main_v46 (F := Ideal) x h c Wi bi Wf bf Wz bz) concatenates_S1x16384x1024_S1x16384x1024_S2x16384x1024_d0 (ix3 p r j) rfl (ix3 (0 : Fin 1) r j)
      (fun b => match b with | ⟨0, _⟩ => hp.symm | ⟨1, _⟩ => rfl | ⟨2, _⟩ => rfl)).trans ?_
    rw [val_main_v45_apply]
    have e : idx_main_v45 (ix3 (0 : Fin 1) r j) = ix2 r j := funext fun a => Fin.ext (by match a with | ⟨0, _⟩ => rfl | ⟨1, _⟩ => rfl)
    rw [e, hidden_eq]
  · rw [if_neg hp]
    have hp1 : p.val = 1 := by have := p.isLt; omega
    refine (concatenate_pair_apply_right (t := S2x16384x1024) (s₁ := S1x16384x1024) (s₂ := S1x16384x1024) (0 : Fin 3) (val_main_v45 (F := Ideal) x h c Wi bi Wf bf Wo bo Wz bz) (val_main_v46 (F := Ideal) x h c Wi bi Wf bf Wz bz) concatenates_S1x16384x1024_S1x16384x1024_S2x16384x1024_d0 (ix3 p r j) rfl rfl (ix3 (0 : Fin 1) r j)
      (fun b => match b with | ⟨0, _⟩ => fun hne => absurd rfl hne | ⟨1, _⟩ => fun _ => rfl | ⟨2, _⟩ => fun _ => rfl)
      (by show 0 + 1 = p.val; omega)).trans ?_
    rw [val_main_v46_apply]
    have e : idx_main_v46 (ix3 (0 : Fin 1) r j) = ix2 r j := funext fun a => Fin.ext (by match a with | ⟨0, _⟩ => rfl | ⟨1, _⟩ => rfl)
    rw [e, cell_eq]

end Cert.ReferenceIdeal.RefStages

end
-- ==== Proof.lean ====
/-
  An LSTM cell computed by a fused kernel equals the plain reference, over the extended reals.

  The kernel stacks the four gates' weight matrices and biases, and for each block of 256 batch rows forms all four
  gates' pre-activations as  x·Wxᵀ + h·Whᵀ + b  (the input and recurrent halves of the stacked weights multiplied
  separately), then  c' = σ(i)·tanh(z) + σ(f)·c  and  h' = σ(o)·tanh(c').  The reference concatenates [x, h] and
  multiplies by each gate's full weight matrix. The two agree because a sum over the 2048 concatenated columns is the
  sum over the first 1024 plus the sum over the last 1024, and because the reference's 1/(1 + exp(−s)) is by
  definition the logistic function the kernel applies; a change of float format is the identity on the extended
  reals. Neither step needs the inputs to be finite.

  The three programs each run to the end and leave their arguments unchanged (the kernel's two readings by the
  pipeline's frame run, the reference's by its run as a list of host operations); the idealized kernel is the kernel's
  own text (no rewrite was applied, so there is nothing to preserve); and the two idealized programs end with the same
  result array.
-/
import proofs.«114699_j51376398795261_2_alg».proof.Defs
import proofs.«114699_j51376398795261_2_alg».proof.Proof.Gen.Kernel
import proofs.«114699_j51376398795261_2_alg».proof.Proof.Gen.KernelIdeal
import proofs.«114699_j51376398795261_2_alg».proof.Proof.Gen.ReferenceIdeal
import proofs.«114699_j51376398795261_2_alg».proof.Proof.Gen.Pre_finite_inputs
import proofs.«114699_j51376398795261_2_alg».proof.Proof.Gen.ReferenceIdeal.Run
import proofs.«114699_j51376398795261_2_alg».proof.Proof.Gen.ReferenceIdeal.Read
import proofs.«114699_j51376398795261_2_alg».proof.Proof.KernelFrame
import proofs.«114699_j51376398795261_2_alg».proof.Proof.KernelIdealFrame
import proofs.«114699_j51376398795261_2_alg».proof.Proof.KernelValue
import proofs.«114699_j51376398795261_2_alg».proof.Proof.RefStages

noncomputable section

namespace Cert.Proof

open Idealize.ShloMosaic Idealize.ShloMosaic.TcCoe Idealize.SL.Sem

theorem frame_kernel : Cert.frame_Kernel := fun m ρ _ => Cert.Kernel.Frame.frame m ρ

theorem frame_kernelIdeal : Cert.frame_KernelIdeal := fun m ρ _ => Cert.KernelIdeal.Frame.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the result array at the LSTM cell of the (agreeing) arguments. -/
theorem algebraic : Cert.algebraic_KernelIdeal_ReferenceIdeal := by
  intro m ρ m' ρ' _ hagree
  refine ⟨fun c => Cert.KernelIdeal.KValue.GM m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v47_eq, Cert.ReferenceIdeal.RefStages.result_eq, a0, a1, a2, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
